-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512 .f32) (main_arg5 : FVec F S512x64 .f32) (main_arg6 : FVec F S64 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8192x2048 .f32) (main_arg1 : FVec F S2048x2048 .f32) (main_arg2 : FVec F S2048 .f32) (main_arg3 : FVec F S2048x512 .f32) (main_arg4 : FVec F S512 .f32) (main_arg5 : FVec F S512x64 .f32) (main_arg6 : FVec F S64 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S1x2048 : Shape := ⟨2, ![1, 2048]⟩
abbrev S1x512 : Shape := ⟨2, ![1, 512]⟩
abbrev S1x64 : Shape := ⟨2, ![1, 64]⟩
abbrev S4x1x64 : Shape := ⟨3, ![4, 1, 64]⟩
abbrev S1x512x2048 : Shape := ⟨3, ![1, 512, 2048]⟩
abbrev S1x1x64 : Shape := ⟨3, ![1, 1, 64]⟩
abbrev S1x128x2048 : Shape := ⟨3, ![1, 128, 2048]⟩
abbrev S1x128 : Shape := ⟨2, ![1, 128]⟩
abbrev S1x128x1 : Shape := ⟨3, ![1, 128, 1]⟩
abbrev S4x64 : Shape := ⟨2, ![4, 64]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S1x2048, .f32⟩
  | .hbm, ⟨8, _⟩ => ⟨S1x512, .f32⟩
  | .hbm, ⟨9, _⟩ => ⟨S1x64, .f32⟩
  | .hbm, ⟨10, _⟩ => ⟨S4x1x64, .f32⟩
  | .hbm, ⟨11, _⟩ => ⟨S4x64, .f32⟩
  | .local _ .vmem, ⟨0, _⟩ => ⟨S1x512x2048, .f32⟩
  | .local _ .vmem, ⟨1, _⟩ => ⟨S1x512x2048, .f32⟩
  | .local _ .vmem, ⟨2, _⟩ => ⟨S2048x2048, .f32⟩
  | .local _ .vmem, ⟨3, _⟩ => ⟨S1x2048, .f32⟩
  | .local _ .vmem, ⟨4, _⟩ => ⟨S2048x512, .f32⟩
  | .local _ .vmem, ⟨5, _⟩ => ⟨S1x512, .f32⟩
  | .local _ .vmem, ⟨6, _⟩ => ⟨S512x64, .f32⟩
  | .local _ .vmem, ⟨7, _⟩ => ⟨S1x64, .f32⟩
  | .local _ .vmem, ⟨8, _⟩ => ⟨S1x1x64, .f32⟩
  | .local _ .vmem, ⟨9, _⟩ => ⟨S1x1x64, .f32⟩
  | .local _ .vmem, ⟨10, _⟩ => ⟨S1x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c128_i32 : BitVec 32 := 128#32
  let v9 : BitVec 32 := Scalar.muli v8 c128_i32
  v9
def k0_off1 (k0_t1 : Fin k0_t1_loop.trips) : Fin 3 → Nat :=
  let c0 : Index := 0#32
  let c0_i32_5 : BitVec 32 := 0#32
  let c0_i32_1 : BitVec 32 := 0#32
  let c1_i32 : BitVec 32 := 1#32
  let arg11 : BitVec 32 := Scf.iv c0_i32_1 c1_i32 k0_t1
  let c1_i32_4 : BitVec 32 := 1#32
  let v7 : BitVec 32 := Scalar.muli arg11 c1_i32_4
  let v8 : BitVec 32 := Scalar.addi c0_i32_5 v7
  let c128_i32 : BitVec 32 := 128#32
  let v9 : BitVec 32 := Scalar.muli v8 c128_i32
  let v10 : BitVec 32 := v9
  let v11 : Index := Scalar.indexCast v10
  let c0_6 : Index := 0#32
  ![0, v11.toNat, 0]
def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2048_S1x2048 : S2048.ShapeCasts S1x2048
  shapeCasts_S512_S1x512 : S512.ShapeCasts S1x512
  shapeCasts_S64_S1x64 : S64.ShapeCasts S1x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1x128x2048 : 0 < S1x128x2048.numel
  reduces_S1x128x2048_S1x128 : S1x128x2048.Reduces [2] S1x128
  shapeCasts_S1x128_S1x128x1 : S1x128.ShapeCasts S1x128x1
  broadcasts_S1x128x1_S1x128x2048 : S1x128x1.Broadcasts S1x128x2048
  reduces_S1x128x2048_S1x2048 : S1x128x2048.Reduces [1] S1x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  shapeCasts_S4x1x64_S4x64 : S4x1x64.ShapeCasts S4x64
  dot_S1x2048_S2048x2048_S1x2048_1_0_0_1_n_n_wf : DotDims.WF S1x2048 S2048x2048 S1x2048 [1] [0] [0] [1] [] []
  dot_S1x2048_S2048x512_S1x512_1_0_0_1_n_n_wf : DotDims.WF S1x2048 S2048x512 S1x512 [1] [0] [0] [1] [] []
  dot_S1x512_S512x64_S1x64_1_0_0_1_n_n_wf : DotDims.WF S1x512 S512x64 S1x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x2048.size a ≤ S1x512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x8192x2048.size a
  hwx0_0 : ∀ i : grid0.Coords, EltTy.bits .f32 = 32 ∨ (Rect.block (s := S4x8192x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S4x1x64.size a
  hwx0_7 : ∀ i : grid0.Coords, EltTy.bits .f32 = 32 ∨ (Rect.block (s := S4x1x64) S1x1x64.size (cc0_transform_7 i) (hinb0_7 i)).WholeWords (EltTy.packing .f32)

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x8192x2048 : Shape := ⟨3, ![4, 8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S512x64 : Shape := ⟨2, ![512, 64]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S1x2048 : Shape := ⟨2, ![1, 2048]⟩
abbrev S4x512 : Shape := ⟨2, ![4, 512]⟩
abbrev S1x512 : Shape := ⟨2, ![1, 512]⟩
abbrev S4x64 : Shape := ⟨2, ![4, 64]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048, .f32⟩
  | .hbm, ⟨22, _⟩ => ⟨S4x2048, .f32⟩
  | .hbm, ⟨23, _⟩ => ⟨S1x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S_, .f32⟩
  | .hbm, ⟨28, _⟩ => ⟨S4x2048, .f32⟩
  | .hbm, ⟨29, _⟩ => ⟨S4x2048, .i1⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S4x512, .f32⟩
  | .hbm, ⟨35, _⟩ => ⟨S1x512, .f32⟩
  | .hbm, ⟨36, _⟩ => ⟨S4x512, .f32⟩
  | .hbm, ⟨37, _⟩ => ⟨S4x512, .f32⟩
  | .hbm, ⟨38, _⟩ => ⟨S_, .f32⟩
  | .hbm, ⟨39, _⟩ => ⟨S_, .f32⟩
  | .hbm, ⟨40, _⟩ => ⟨S4x512, .f32⟩
  | .hbm, ⟨41, _⟩ => ⟨S4x512, .i1⟩
  | .hbm, ⟨42, _⟩ => ⟨S_, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x64, .f32⟩
  | .hbm, ⟨47, _⟩ => ⟨S1x64, .f32⟩
  | .hbm, ⟨48, _⟩ => ⟨S4x64, .f32⟩
  | .hbm, ⟨49, _⟩ => ⟨S4x64, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  reducesTo_S4x8192x2048_S4x2048_d1 : S4x8192x2048.ReducesTo [1] S4x2048
  bcast_S_S4x2048 : S_.BroadcastsInDim S4x2048 (![] : Fin 0 → Fin S4x2048.rank)
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S_S4x512 : S_.BroadcastsInDim S4x512 (![] : Fin 0 → Fin S4x512.rank)
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  dot_S4x2048_S2048x2048_S4x2048_1_0_0_1_n_n_wf : DotDims.WF S4x2048 S2048x2048 S4x2048 [1] [0] [0] [1] [] []
  dot_S4x2048_S2048x512_S4x512_1_0_0_1_n_n_wf : DotDims.WF S4x2048 S2048x512 S4x512 [1] [0] [0] [1] [] []
  dot_S4x512_S512x64_S4x64_1_0_0_1_n_n_wf : DotDims.WF S4x512 S512x64 S4x64 [1] [0] [0] [1] [] []

variable [Facts₀]

def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf
def dot_S4x2048_S2048x512_S4x512_1_0_0_1_n_n : DotDims S4x2048 S2048x512 S4x512 where
  lhsContracting := [1]
  rhsContracting := [0]
  lhsNonContracting := [0]
  rhsNonContracting := [1]
  lhsBatch := []
  rhsBatch := []
  wf := dot_S4x2048_S2048x512_S4x512_1_0_0_1_n_n_wf
def dot_S4x512_S512x64_S4x64_1_0_0_1_n_n : DotDims S4x512 S512x64 S4x64 where
  lhsContracting := [1]
  rhsContracting := [0]
  lhsNonContracting := [0]
  rhsNonContracting := [1]
  lhsBatch := []
  rhsBatch := []
  wf := dot_S4x512_S512x64_S4x64_1_0_0_1_n_n_wf

class Facts : Prop extends Facts₀ where

variable [Facts]
-- ==== Proof.Pieces.lean ====
/-
  What one grid point's body leaves behind, as plain terms.  A grid point is a tile of 512 rows of one batch; the body
  walks it in four chunks of 128 rows, each trip replacing the running row (one number per feature) by itself plus
  the chunk's contribution.  The running row is carried from a batch's tile to its next: the first tile starts it
  from the zero row, the others from what the tile before left, and the last tile also stores the batch's output
  row, the three layers applied to the finished running row.  Each trip makes one store through the whole running
  row, so what the row reads after k trips is the k-fold accumulation, by induction on the trips.
-/
import proofs.«153912_j4887672783552_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem trips_eq : k0_t1_loop.trips = 4 := by decide

/-- A store through the whole shape, made last, is what the buffer reads afterwards. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- Rows 128 k … 128 k + 127 of a tile of 512 rows. -/
def chunk (x0 : Vec F S1x512x2048 .f32) (k : Fin k0_t1_loop.trips) : Vec F S1x128x2048 .f32 :=
  View.ld x0 (Rect.unit (s := S1x512x2048) (k0_off1 k) S1x128x2048.size (Facts₀.k0_off1_inb k))

/-- The running row after the first k chunks of a tile have been added to s. -/
def acc (x0 : Vec F S1x512x2048 .f32) (s : Vec F S1x2048 .f32) : ℕ → Vec F S1x2048 .f32
  | 0 => s
  | k + 1 => if h : k < k0_t1_loop.trips then k0_pay2 (chunk x0 ⟨k, h⟩) (acc x0 s k) else acc x0 s k

/-- One trip of the loop stores, through the whole running row, the chunk's contribution added to what it finds. -/
theorem tripL_eq (𝒱 : Variants) (bd : Option 𝒱.V) (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (X_arg2 : BufTy.Contents (Elt F) arg2.view.ty) (k : Fin k0_t1_loop.trips) (f_arg10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 X_arg2 k f_arg10
      = [⟨Rect.unit (s := S1x2048) ![0, 0] S1x2048.size Facts₀.inb_S1x2048_S1x2048_0_0,
          k0_pay2 (View.readAt (Elt F) arg2.view (Rect.unit (s := S1x512x2048) (k0_off1 k) S1x128x2048.size (Facts₀.k0_off1_inb k)).toLoadRect X_arg2)
            (View.readAt (Elt F) arg10.view (Rect.unit (s := S1x2048) ![0, 0] S1x2048.size Facts₀.inb_S1x2048_S1x2048_0_0).toLoadRect f_arg10)⟩] := by
  unfold tripL_k0_t1 trip_k0_t1
  rfl

/-- After k trips the running row reads the first k chunks added to what the loop found. -/
theorem read_pb (𝒱 : Variants) (bd : Option 𝒱.V) (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (X_arg2 : BufTy.Contents (Elt F) arg2.view.ty) (G_arg10 : BufTy.Contents (Elt F) arg10.view.ty)
    (x0 : Vec F S1x512x2048 .f32) (hX : arg2.view.read (Elt F) X_arg2 = x0) :
    ∀ k : ℕ, k ≤ k0_t1_loop.trips →
      arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 X_arg2 G_arg10 k))
        = acc x0 (arg10.view.read (Elt F) G_arg10) k
  | 0, _ => rfl
  | k + 1, hk => by
    have hk' : k < k0_t1_loop.trips := hk
    rw [pb_k0_t1_succ (F := F) 𝒱 c bd i arg2 harg2 arg3 harg3 arg4 harg4 arg5 harg5 arg6 harg6 arg7 harg7 arg8 harg8 arg9 harg9 arg10 harg10 X_arg2 G_arg10 ⟨k, hk'⟩,
      tripL_eq, List.singleton_append, read_writes_cons_whole _ _ hz2]
    show k0_pay2 _ _ = if h : k < k0_t1_loop.trips then k0_pay2 (chunk x0 ⟨k, h⟩) (acc x0 _ k) else _
    rw [dif_pos hk', View.readAt_eq_ld, View.readAt_eq_ld, View.ld_unit_zero (S := S1x2048) hz2,
      read_pb 𝒱 bd c i arg2 harg2 arg3 harg3 arg4 harg4 arg5 harg5 arg6 harg6 arg7 harg7 arg8 harg8 arg9 harg9 arg10 harg10 X_arg2 G_arg10 x0 hX k (Nat.le_of_lt hk'), hX]
    rfl

/-- After k + 1 trips the pieces' own reading (whatever buffer they are written into, whatever was stored before the
    loop) is the same running row: the last trip's store covers the row. -/
theorem canon_pb (𝒱 : Variants) (bd : Option 𝒱.V) (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (X_arg2 : BufTy.Contents (Elt F) arg2.view.ty) (G_arg10 : BufTy.Contents (Elt F) arg10.view.ty)
    (x0 : Vec F S1x512x2048 .f32) (hX : arg2.view.read (Elt F) X_arg2 = x0) (k : ℕ) (hk : k < k0_t1_loop.trips)
    (L' : List (View.Piece (Elt F) S1x2048 .f32)) :
    View.canon (pb_k0_t1 (F := F) 𝒱 c bd i arg2 harg2 arg3 harg3 arg4 harg4 arg5 harg5 arg6 harg6 arg7 harg7 arg8 harg8 arg9 harg9 arg10 harg10 X_arg2 G_arg10 (k + 1) ++ L') = acc x0 (arg10.view.read (Elt F) G_arg10) (k + 1) := by
  rw [pb_k0_t1_succ (F := F) 𝒱 c bd i arg2 harg2 arg3 harg3 arg4 harg4 arg5 harg5 arg6 harg6 arg7 harg7 arg8 harg8 arg9 harg9 arg10 harg10 X_arg2 G_arg10 ⟨k, hk⟩,
    tripL_eq, List.singleton_append, List.cons_append, View.canon_cons_unit_zero hz2]
  show k0_pay2 _ _ = if h : k < k0_t1_loop.trips then k0_pay2 (chunk x0 ⟨k, h⟩) (acc x0 _ k) else _
  rw [dif_pos hk, View.readAt_eq_ld, View.readAt_eq_ld, View.ld_unit_zero (S := S1x2048) hz2,
    read_pb 𝒱 bd c i arg2 harg2 arg3 harg3 arg4 harg4 arg5 harg5 arg6 harg6 arg7 harg7 arg8 harg8 arg9 harg9 arg10 harg10 X_arg2 G_arg10 x0 hX k (Nat.le_of_lt hk), hX]
  rfl

/-- A middle tile of a batch: the running row it finds, with the tile's four chunks added. -/
theorem sout_B (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (hc0 : ¬cond0_0 i) (hc1 : ¬cond0_1 i)
    (x0 : Vec F S1x512x2048 .f32) (x1 : Vec F S2048x2048 .f32) (x2 : Vec F S1x2048 .f32) (x3 : Vec F S2048x512 .f32) (x4 : Vec F S1x512 .f32) (x5 : Vec F S512x64 .f32) (x6 : Vec F S1x64 .f32) (xs0 : Vec F S1x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = acc x0 xs0 4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [show Scf.trips (0#32) (Scalar.addi 0#32 4#32) 1#32 = 3 + 1 from trips_eq, ← List.append_nil (pb_k0_t1 _ _ _ _ _ _ _ _ _ _ _ _ _ _ _ _ _ _ _ _ _ _ _ _ _),
    canon_pb Variants.none none c i arg2 harg2 arg3 harg3 arg4 harg4 arg5 harg5 arg6 harg6 arg7 harg7 arg8 harg8 arg9 harg9 arg10 harg10 _ _ x0 (harg2.read_unread x0) 3 (by rw [trips_eq]; omega), harg10.read_unread]

/-- The last tile of a batch leaves the same running row … -/
theorem sout_C (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (hc0 : ¬cond0_0 i) (hc1 : cond0_1 i)
    (x0 : Vec F S1x512x2048 .f32) (x1 : Vec F S2048x2048 .f32) (x2 : Vec F S1x2048 .f32) (x3 : Vec F S2048x512 .f32) (x4 : Vec F S1x512 .f32) (x5 : Vec F S512x64 .f32) (x6 : Vec F S1x64 .f32) (xs0 : Vec F S1x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = acc x0 xs0 4 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  rw [show Scf.trips (0#32) (Scalar.addi 0#32 4#32) 1#32 = 3 + 1 from trips_eq, ← List.append_nil (pb_k0_t1 _ _ _ _ _ _ _ _ _ _ _ _ _ _ _ _ _ _ _ _ _ _ _ _ _),
    canon_pb Variants.none none c i arg2 harg2 arg3 harg3 arg4 harg4 arg5 harg5 arg6 harg6 arg7 harg7 arg8 harg8 arg9 harg9 arg10 harg10 _ _ x0 (harg2.read_unread x0) 3 (by rw [trips_eq]; omega), harg10.read_unread]

/-- … and stores, as the batch's output row, the three layers applied to the finished running row. -/
theorem out_C (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (hc0 : ¬cond0_0 i) (hc1 : cond0_1 i)
    (x0 : Vec F S1x512x2048 .f32) (x1 : Vec F S2048x2048 .f32) (x2 : Vec F S1x2048 .f32) (x3 : Vec F S2048x512 .f32) (x4 : Vec F S1x512 .f32) (x5 : Vec F S512x64 .f32) (x6 : Vec F S1x64 .f32) (xs0 : Vec F S1x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (acc x0 xs0 4) x1 x2 x3 x4 x5 x6 := by
  have e : arg10.view.read (Elt F) (arg10.view.writes (Elt F) (harg10.unread xs0)
      (pb_k0_t1 (F := F) Variants.none c none i arg2 harg2 arg3 harg3 arg4 harg4 arg5 harg5 arg6 harg6 arg7 harg7 arg8 harg8 arg9 harg9 arg10 harg10
        (harg2.unread x0) (harg10.unread xs0) (Scf.trips k0_t1_loop.lb k0_t1_loop.ub k0_t1_loop.st))) = acc x0 xs0 4 := by
    have h := read_pb Variants.none none c i arg2 harg2 arg3 harg3 arg4 harg4 arg5 harg5 arg6 harg6 arg7 harg7 arg8 harg8 arg9 harg9 arg10 harg10 (harg2.unread x0) (harg10.unread xs0) x0 (harg2.read_unread x0) k0_t1_loop.trips le_rfl
    rw [harg10.read_unread, show acc x0 xs0 k0_t1_loop.trips = acc x0 xs0 4 from by rw [trips_eq]] at h
    exact h
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz3]
  simp only [View.readAt_eq_ld, harg3.read_unread, harg4.read_unread, harg5.read_unread, harg6.read_unread,
    harg7.read_unread, harg8.read_unread, View.ld_unit_zero (S := S2048x2048) hz2, View.ld_unit_zero (S := S1x2048) hz2,
    View.ld_unit_zero (S := S2048x512) hz2, View.ld_unit_zero (S := S1x512) hz2, View.ld_unit_zero (S := S512x64) hz2,
    View.ld_unit_zero (S := S1x64) hz2, e]

/-- The first tile of a batch: the zero row, with the tile's four chunks added. -/
theorem sout_A (c : Dev nD) (i : grid0.Coords) (arg2 : Memref sig .tc .vmem S1x512x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S1x512 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S1x1x64 .f32) (harg9 : arg9.IsWhole) (arg10 : Memref sig .tc .vmem S1x2048 .f32) (harg10 : arg10.IsWhole) (hc0 : cond0_0 i) (hc1 : ¬cond0_1 i)
    (x0 : Vec F S1x512x2048 .f32) (x1 : Vec F S2048x2048 .f32) (x2 : Vec F S1x2048 .f32) (x3 : Vec F S2048x512 .f32) (x4 : Vec F S1x512 .f32) (x5 : Vec F S512x64 .f32) (x6 : Vec F S1x64 .f32) :
    sout0_A_0 c i arg2 harg2 arg3 harg3 arg4 harg4 arg5 harg5 arg6 harg6 arg7 harg7 arg8 harg8 arg9 harg9 arg10 harg10 hc0 hc1 x0 x1 x2 x3 x4 x5 x6 = acc x0 (k0_pay1 (F := F)) 4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [show Scf.trips (0#32) (Scalar.addi 0#32 4#32) 1#32 = 3 + 1 from trips_eq,
    canon_pb Variants.none none c i arg2 harg2 arg3 harg3 arg4 harg4 arg5 harg5 arg6 harg6 arg7 harg7 arg8 harg8 arg9 harg9 arg10 harg10 _ _ x0 (harg2.read_unread x0) 3 (by rw [trips_eq]; omega), read_writes_cons_whole _ _ hz2]

end Cert.KernelIdeal.Pieces

end
-- ==== Proof.Grid.lean ====
/-
  The running row and the output row point by point.  The 64 grid points are the 4 batches' 16 tiles in order
  (point t is tile t mod 16 of batch t div 16).  A batch's first tile leaves the zero row with its own four chunks
  added; every other tile leaves what the tile before left with its own four chunks added; a batch's last tile
  also leaves, in the output block, the three layers applied to the finished row.
-/
import proofs.«153912_j4887672783552_2_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.Grid

open Cert.KernelIdeal Cert.KernelIdeal.Gen Cert.KernelIdeal.Pieces

variable {F : FTy → Type} [FloatOps F]
variable (m : (ℓ : Loc nD τ sig) → Buf (Elt F) ℓ)

/-- After a batch's first tile: the zero row plus the tile's chunks. -/
theorem row_first (c : Dev nD) (t : Fin cfg0.N) (h0 : t.val % 16 = 0) :
    (outsAt0 m c t.val t.isLt).2 = acc (iblk m c 0 t) (k0_pay1 (F := F)) 4 := by
  have h1 : ¬t.val % 16 = 15 := by omega
  rw [outsAt0_A m c t h0 h1]
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- After any other tile: what the tile before left plus the tile's chunks. -/
theorem row_next (c : Dev nD) (t : Fin cfg0.N) (h0 : ¬t.val % 16 = 0) :
    (outsAt0 m c t.val t.isLt).2 = acc (iblk m c 0 t) (outsAt0 m c (t.val - 1) (Nat.lt_of_le_of_lt (Nat.sub_le _ _) t.isLt)).2 4 := by
  by_cases h1 : t.val % 16 = 15
  · rw [outsAt0_C m c t h0 h1]
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  · rw [outsAt0_B m c t h0 h1]
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- After a batch's last tile the output block holds the three layers of the finished row. -/
theorem out_last (c : Dev nD) (t : Fin cfg0.N) (h1 : t.val % 16 = 15) :
    (outsAt0 m c t.val t.isLt).1
      = k0_pay3 (acc (iblk m c 0 t) (outsAt0 m c (t.val - 1) (Nat.lt_of_le_of_lt (Nat.sub_le _ _) t.isLt)).2 4) (iblk m c 1 t) (iblk m c 2 t) (iblk m c 3 t) (iblk m c 4 t) (iblk m c 5 t) (iblk m c 6 t) := by
  have h0 : ¬t.val % 16 = 0 := by omega
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- Entry (0, r, e) of chunk k of a tile is the tile's entry (0, 128 k + r, e). -/
theorem chunk_apply (x0 : Vec F S1x512x2048 .f32) (k : Fin k0_t1_loop.trips) (r : Fin 128) (e : Fin 2048)
    (h : 128 * k.val + r.val < 512) :
    chunk x0 k (ix3 (0 : Fin 1) r e) = x0 (ix3 (0 : Fin 1) ⟨128 * k.val + r.val, h⟩ e) := by
  unfold chunk
  show x0 ((Rect.unit (s := S1x512x2048) (k0_off1 k) S1x128x2048.size (Facts₀.k0_off1_inb k)).emb (ix3 (0 : Fin 1) r e)) = _
  refine congrArg x0 (funext fun a => Fin.ext ?_)
  rw [Rect.emb_apply]
  have ho : ∀ a : Fin 3, k0_off1 k a = (![0, 128 * k.val, 0] : Fin 3 → Nat) a := fun a => congrFun (k0_off1_eq k) a
  match a with
  | ⟨0, _⟩ => exact (congrArg (· + 1 * 0) (ho 0)).trans rfl
  | ⟨1, _⟩ => exact (congrArg (· + 1 * r.val) (ho 1)).trans (by show 128 * k.val + 1 * r.val = 128 * k.val + r.val; omega)
  | ⟨2, _⟩ => exact (congrArg (· + 1 * e.val) (ho 2)).trans (by show 0 + 1 * e.val = e.val; omega)

end Cert.KernelIdeal.Grid

end
-- ==== Proof.Spec.lean ====
/-
  The mathematics both programs compute, on the extended reals, index by index.

  For a batch b the rows x[b, n, ·] (n < 8192) are centred on their own mean over the 2048 features; column d's
  sum over the rows of the squared deviations is ss[b, d]; the ratio ss / (ss + ε) feeds three dense layers, the
  first two followed by a leaky rectifier v ↦ v where v is non-negative, else slope · v.  The rectifier written
  with a strict comparison (v where v is positive, else slope · v) is the same function: the two differ only at
  v = 0, where slope · 0 = 0.  A sum over the 8192 rows taken a stretch of rows at a time is the same sum, by
  associativity of addition alone: nothing here needs the inputs to be finite.
-/
import Idealize.ShloMosaic.PureOps.Ideal.Laws
import Idealize.ShloMosaic.Lib.ValueIdx

noncomputable section

namespace Cert.CovMlp

open Idealize.ShloMosaic Idealize.ShloMosaic.ValueIdx

/-- The number of features, as the float both programs divide a row's sum by. -/
def nFeat : EReal := Ideal.ofBits .f32 0x45000000#32
/-- The ε both programs add to the denominator. -/
def eps : EReal := Ideal.ofBits .f32 0x358637BD#32
/-- The rectifier's slope on the negative side. -/
def slope : EReal := Ideal.ofBits .f32 0x3C23D70A#32

/-- The squared deviation of entry d of a row from the row's mean. -/
def dev2 (row : Fin 2048 → EReal) (d : Fin 2048) : EReal :=
  (row d - Ideal.div (∑ e : Fin 2048, row e) nFeat) * (row d - Ideal.div (∑ e : Fin 2048, row e) nFeat)

/-- Row n of batch b contributes this to column d (nothing past the last row). -/
def rowTerm (x : (⟨3, ![4, 8192, 2048]⟩ : Shape).Idx → EReal) (b : Fin 4) (d : Fin 2048) (n : ℕ) : EReal :=
  if h : n < 8192 then dev2 (fun e => x (ix3 b ⟨n, h⟩ e)) d else 0

/-- Column d's sum of squared deviations over the first R rows of batch b. -/
def ssUpTo (x : (⟨3, ![4, 8192, 2048]⟩ : Shape).Idx → EReal) (b : Fin 4) (d : Fin 2048) (R : ℕ) : EReal :=
  ∑ n ∈ Finset.range R, rowTerm x b d n

/-- Column d's sum of squared deviations over all rows of batch b. -/
def ss (x : (⟨3, ![4, 8192, 2048]⟩ : Shape).Idx → EReal) (b : Fin 4) (d : Fin 2048) : EReal :=
  ∑ n : Fin 8192, dev2 (fun e => x (ix3 b n e)) d

theorem ss_eq_upTo (x : (⟨3, ![4, 8192, 2048]⟩ : Shape).Idx → EReal) (b : Fin 4) (d : Fin 2048) :
    ss x b d = ssUpTo x b d 8192 := by
  unfold ss ssUpTo
  rw [Finset.sum_range]
  refine Finset.sum_congr rfl fun n _ => ?_
  unfold rowTerm
  rw [dif_pos n.isLt]

/-- Taking K more rows adds their terms. -/
theorem ssUpTo_add (x : (⟨3, ![4, 8192, 2048]⟩ : Shape).Idx → EReal) (b : Fin 4) (d : Fin 2048) (R K : ℕ) :
    ssUpTo x b d (R + K) = ssUpTo x b d R + ∑ r : Fin K, rowTerm x b d (R + r.val) := by
  unfold ssUpTo
  rw [Finset.sum_range_add]
  exact congrArg (_ + ·) (Finset.sum_range fun r => rowTerm x b d (R + r))

theorem ssUpTo_zero (x : (⟨3, ![4, 8192, 2048]⟩ : Shape).Idx → EReal) (b : Fin 4) (d : Fin 2048) :
    ssUpTo x b d 0 = 0 := by
  unfold ssUpTo; rw [Finset.range_zero, Finset.sum_empty]

/-- The ratio ss / (ss + ε). -/
def ratio (s : EReal) : EReal := Ideal.div s (s + eps)

/-- The leaky rectifier with the non-strict test. -/
def act (v : EReal) : EReal := if 0 ≤ v then v else slope * v
/-- The leaky rectifier with the strict test. -/
def actStrict (v : EReal) : EReal := if 0 < v then v else slope * v

/-- The two rectifiers agree: they differ in their test only at 0, where slope · 0 = 0. -/
theorem actStrict_eq_act (v : EReal) : actStrict v = act v := by
  unfold actStrict act
  by_cases h : 0 < v
  · rw [if_pos h, if_pos h.le]
  · rw [if_neg h]
    by_cases h' : 0 ≤ v
    · have hv : v = 0 := le_antisymm (not_lt.mp h) h'
      rw [if_pos h', hv, mul_zero]
    · rw [if_neg h']

/-- One dense layer's entry j: the inner product of the incoming vector with column j of the weights, plus the bias. -/
def dense {K N : ℕ} (h : Fin K → EReal) (W : (⟨2, ![K, N]⟩ : Shape).Idx → EReal) (bias : Fin N → EReal) (j : Fin N) : EReal :=
  (∑ k : Fin K, h k * W (ix2 k j)) + bias j

/-- The three layers on an incoming vector c, with rectifier a after the first two. -/
def mlp (a : EReal → EReal) (c : Fin 2048 → EReal)
    (W1 : (⟨2, ![2048, 2048]⟩ : Shape).Idx → EReal) (b1 : Fin 2048 → EReal)
    (W2 : (⟨2, ![2048, 512]⟩ : Shape).Idx → EReal) (b2 : Fin 512 → EReal)
    (W3 : (⟨2, ![512, 64]⟩ : Shape).Idx → EReal) (b3 : Fin 64 → EReal) (j : Fin 64) : EReal :=
  dense (fun k => a (dense (fun k' => a (dense c W1 b1 k')) W2 b2 k)) W3 b3 j

theorem mlp_actStrict (c : Fin 2048 → EReal)
    (W1 : (⟨2, ![2048, 2048]⟩ : Shape).Idx → EReal) (b1 : Fin 2048 → EReal)
    (W2 : (⟨2, ![2048, 512]⟩ : Shape).Idx → EReal) (b2 : Fin 512 → EReal)
    (W3 : (⟨2, ![512, 64]⟩ : Shape).Idx → EReal) (b3 : Fin 64 → EReal) (j : Fin 64) :
    mlp actStrict c W1 b1 W2 b2 W3 b3 j = mlp act c W1 b1 W2 b2 W3 b3 j := by
  have e : actStrict = act := funext actStrict_eq_act
  rw [e]

/-- The result at (b, j), as a function of the seven argument arrays. -/
def out (x : (⟨3, ![4, 8192, 2048]⟩ : Shape).Idx → EReal)
    (W1 : (⟨2, ![2048, 2048]⟩ : Shape).Idx → EReal) (b1 : (⟨1, ![2048]⟩ : Shape).Idx → EReal)
    (W2 : (⟨2, ![2048, 512]⟩ : Shape).Idx → EReal) (b2 : (⟨1, ![512]⟩ : Shape).Idx → EReal)
    (W3 : (⟨2, ![512, 64]⟩ : Shape).Idx → EReal) (b3 : (⟨1, ![64]⟩ : Shape).Idx → EReal)
    (b : Fin 4) (j : Fin 64) : EReal :=
  mlp act (fun d => ratio (ss x b d)) W1 (fun k => b1 (ix1 k)) W2 (fun k => b2 (ix1 k)) W3 (fun k => b3 (ix1 k)) j

/-- The whole result array [4, 64]. -/
def outArr (x : (⟨3, ![4, 8192, 2048]⟩ : Shape).Idx → EReal)
    (W1 : (⟨2, ![2048, 2048]⟩ : Shape).Idx → EReal) (b1 : (⟨1, ![2048]⟩ : Shape).Idx → EReal)
    (W2 : (⟨2, ![2048, 512]⟩ : Shape).Idx → EReal) (b2 : (⟨1, ![512]⟩ : Shape).Idx → EReal)
    (W3 : (⟨2, ![512, 64]⟩ : Shape).Idx → EReal) (b3 : (⟨1, ![64]⟩ : Shape).Idx → EReal) :
    (⟨2, ![4, 64]⟩ : Shape).Idx → EReal :=
  fun i => out x W1 b1 W2 b2 W3 b3 (i 0) (i 1)

end Cert.CovMlp

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«153912_j4887672783552_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibRank3Sums.lean ====
/-
  Sums and two layout operations on a rank-3 array, read at an index given by its coordinates, on the extended reals.

  A float sum of the vector unit over the last axis of an [a, b, c] array, read at (p, r), is the sum over e of the array
  at (p, r, e); over the middle axis, read at (p, d), it is the sum over r of the array at (p, r, d).  The cast of an
  [a, b] array to [a, b, 1] reads, at (p, r, u), the operand at (p, r); and an [a, b, 1] array repeated along its last
  axis to [a, b, c] reads, at (p, r, e), the operand at (p, r, 0).
-/
import Idealize.ShloMosaic.PureOps.Ideal.Laws
import Idealize.ShloMosaic.Lib.ValueIdx
import Idealize.ShloMosaic.Lib.Pipeline.Value

noncomputable section

namespace Cert.LibRank3Sums

open Idealize.ShloMosaic Idealize.ShloMosaic.ValueIdx

/-- A sum over the last axis of an [a, b, c] array, at (p, r), is the sum over e of the array at (p, r, e). -/
theorem sumLast_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (r : Fin b) :
    multiReduction (F := Ideal) .add [2] ⟨2, ![a, b]⟩ src acc h hφ hacc (ix2 p r) = ∑ e : Fin c, src (ix3 p r e) := by
  refine (Ideal.multiReduction_add_single src acc h hφ hacc (ix2 p r)).trans ?_
  refine Finset.sum_congr rfl fun e _ => congrArg src ?_
  funext ax
  refine Fin.ext ?_
  match ax with
  | ⟨0, _⟩ => rfl
  | ⟨1, _⟩ => rfl
  | ⟨2, _⟩ => rfl

/-- A sum over the middle axis of an [a, b, c] array, at (p, d), is the sum over r of the array at (p, r, d). -/
theorem sumMid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (d : Fin c) :
    multiReduction (F := Ideal) .add [1] ⟨2, ![a, c]⟩ src acc h hφ hacc (ix2 p d) = ∑ r : Fin b, src (ix3 p r d) := by
  refine (Ideal.multiReduction_add_single src acc h hφ hacc (ix2 p d)).trans ?_
  refine Finset.sum_congr rfl fun r _ => congrArg src ?_
  funext ax
  refine Fin.ext ?_
  match ax with
  | ⟨0, _⟩ => rfl
  | ⟨1, _⟩ => rfl
  | ⟨2, _⟩ => rfl

/-- An [a, b] array cast to [a, b, 1] reads, at (p, r, u), the operand at (p, r). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-- An [a, b, 1] array repeated along the last axis to [a, b, c] reads, at (p, r, e), the operand at (p, r, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (r : Fin b) (e : Fin c) :
    broadcastTo ⟨3, ![a, b, c]⟩ v h (ix3 p r e) = v (ix3 p r (0 : Fin 1)) := by
  refine broadcastTo_apply v h (ix3 p r e) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

end Cert.LibRank3Sums

end
-- ==== Proof.Payload.lean ====
/-
  The kernel's three stored values, each read at one index over the extended reals.

  The first is the zero row.  The second takes a stretch of 128 rows, centres each row on its own mean over the 2048
  features, squares, sums the stretch's rows column by column and adds the running row.  The third is the ratio
  s / (s + ε) of the finished sums followed by three dense layers, the first two with a leaky rectifier written with a
  strict comparison; the changes of float format on the way into each product are the identity on the extended reals.
-/
import proofs.«153912_j4887672783552_2_alg».proof.Proof.Gen.KernelIdeal.Skeleton
import proofs.«153912_j4887672783552_2_alg».proof.Proof.Spec
import proofs.«153912_j4887672783552_2_alg».proof.Proof.LibHostRead
import proofs.«153912_j4887672783552_2_alg».proof.Proof.LibPlainDot
import proofs.«153912_j4887672783552_2_alg».proof.Proof.LibRank3Sums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Cert.CovMlp Cert.LibHostRead Cert.LibPlainDot Cert.LibRank3Sums
open Idealize.ShloMosaic Idealize.ShloMosaic.ValueIdx

/-! ## The zero row -/

theorem pay1_apply (d : Fin 2048) : k0_pay1 (F := Ideal) (ix2 (0 : Fin 1) d) = 0 := by
  show shapeCast S1x2048 (broadcast S1x2048 (Scalar.ofBits (F := Ideal) .f32 0x00000000#32)) _ (ix2 (0 : Fin 1) d) = 0
  rw [shapeCast_self]
  exact Ideal.ofBits_zero_f32

/-! ## One stretch of rows -/

theorem pay2_apply (v12 : Vec Ideal S1x128x2048 .f32) (v19 : Vec Ideal S1x2048 .f32) (d : Fin 2048) :
    k0_pay2 (F := Ideal) v12 v19 (ix2 (0 : Fin 1) d)
      = v19 (ix2 (0 : Fin 1) d) + ∑ r : Fin 128, dev2 (fun e => v12 (ix3 (0 : Fin 1) r e)) d := by
  unfold k0_pay2
  rw [shapeCast_self]
  refine (addf_apply _ _ _).trans ?_
  refine congrArg (v19 (ix2 (0 : Fin 1) d) + ·) ?_
  refine (sumMid_apply _ _ _ _ _ (0 : Fin 1) d).trans ?_
  refine Finset.sum_congr rfl fun r _ => ?_
  -- the centred entry (r, d): the entry minus the row's sum over the features divided by their number
  have hc : ∀ e : Fin 2048,
      broadcastTo S1x128x2048
          (divf (shapeCast S1x128x1
              (multiReduction (F := Ideal) .add [2] S1x128 v12 0x00000000#32 reduces_S1x128x2048_S1x128 (.inl rfl) rfl)
              shapeCasts_S1x128_S1x128x1)
            (broadcast S1x128x1 (Scalar.ofBits (F := Ideal) .f32 0x45000000#32)))
          broadcasts_S1x128x1_S1x128x2048 (ix3 (0 : Fin 1) r e)
        = Ideal.div (∑ e' : Fin 2048, v12 (ix3 (0 : Fin 1) r e')) nFeat := fun e => by
    refine (broadcastTo_ab1_abc_apply _ _ (0 : Fin 1) r e).trans ?_
    refine (divf_apply _ _ _).trans ?_
    refine congrArg₂ Ideal.div ?_ rfl
    refine (shapeCast_ab_ab1_apply _ _ (0 : Fin 1) r (0 : Fin 1)).trans ?_
    exact sumLast_apply _ _ _ _ _ (0 : Fin 1) r
  refine (mulf_apply _ _ _).trans ?_
  refine congrArg₂ (· * ·) ?_ ?_ <;>
  · refine (subf_apply _ _ _).trans ?_
    exact congrArg (v12 (ix3 (0 : Fin 1) r d) - ·) (hc d)

/-! ## The ratio and the three layers -/

/-- The kernel's rectifier — keep v where v exceeds zero, else slope times v — is the strict rectifier at each entry. -/
theorem leaky_apply {s : Shape} (v : FVec Ideal s .f32) (i : s.Idx) :
    select (cmpf .ogt v (broadcast s (Scalar.ofBits (F := Ideal) .f32 0x00000000#32))) v
        (mulf (broadcast s (Scalar.ofBits (F := Ideal) .f32 0x3C23D70A#32)) v) i
      = actStrict (v i) := by
  show Scalar.select (Ideal.cmp .ogt (v i) (Ideal.ofBits .f32 0x00000000#32)) (v i) (Ideal.ofBits .f32 0x3C23D70A#32 * v i)
      = actStrict (v i)
  rw [Ideal.ofBits_zero_f32]
  unfold actStrict Cert.CovMlp.slope Ideal.cmp
  by_cases h : 0 < v i
  · rw [if_pos h]
    show Scalar.select (BitVec.ofBool (decide (0 < v i))) _ _ = _
    rw [decide_eq_true h]
    exact select_one _ _
  · rw [if_neg h]
    show Scalar.select (BitVec.ofBool (decide (0 < v i))) _ _ = _
    rw [decide_eq_false h]
    exact select_zero _ _

/-- One layer of the kernel — both operands narrowed (the identity here), multiplied into the zero accumulator, the bias
    row added — read at (0, j): the inner product of the incoming row with column j of the weights, plus the bias at j. -/
theorem layer_apply {K N : ℕ} (dd : DotDims ⟨2, ![1, K]⟩ ⟨2, ![K, N]⟩ ⟨2, ![1, N]⟩) (hd : PlainDot dd)
    (h : FVec Ideal ⟨2, ![1, K]⟩ .f32) (W : FVec Ideal ⟨2, ![K, N]⟩ .f32) (b : FVec Ideal ⟨2, ![1, N]⟩ .f32)
    (hlt : FTy.bits .bf16 < FTy.bits .f32) (hc : (⟨2, ![1, N]⟩ : Shape).ShapeCasts ⟨2, ![1, N]⟩) (j : Fin N) :
    addf (matmul dd none (truncf .bf16 h hlt) (truncf .bf16 W hlt) (constant (F := Ideal) ⟨2, ![1, N]⟩ .f32 0x00000000#32))
        (shapeCast ⟨2, ![1, N]⟩ b hc) (ix2 (0 : Fin 1) j)
      = dense (fun k => h (ix2 (0 : Fin 1) k)) W (fun k => b (ix2 (0 : Fin 1) k)) j := by
  rw [shapeCast_self]
  refine (addf_apply _ _ _).trans ?_
  unfold dense
  refine congrArg (· + b (ix2 (0 : Fin 1) j)) ?_
  exact vmatmul_apply dd hd (truncf .bf16 h hlt) (truncf .bf16 W hlt) (0 : Fin 1) j

theorem plain1 : PlainDot dot_S1x2048_S2048x2048_S1x2048_1_0_0_1_n_n where
  hr := rfl
  hs := rfl
  hl0 := fun _ _ => rfl
  hl1 := fun _ _ => rfl
  hr0 := fun _ _ => rfl
  hr1 := fun _ _ => rfl

theorem plain2 : PlainDot dot_S1x2048_S2048x512_S1x512_1_0_0_1_n_n where
  hr := rfl
  hs := rfl
  hl0 := fun _ _ => rfl
  hl1 := fun _ _ => rfl
  hr0 := fun _ _ => rfl
  hr1 := fun _ _ => rfl

theorem plain3 : PlainDot dot_S1x512_S512x64_S1x64_1_0_0_1_n_n where
  hr := rfl
  hs := rfl
  hl0 := fun _ _ => rfl
  hl1 := fun _ _ => rfl
  hr0 := fun _ _ => rfl
  hr1 := fun _ _ => rfl

theorem pay3_apply (v7 : Vec Ideal S1x2048 .f32) (v12 : Vec Ideal S2048x2048 .f32) (v15 : Vec Ideal S1x2048 .f32)
    (v24 : Vec Ideal S2048x512 .f32) (v27 : Vec Ideal S1x512 .f32) (v36 : Vec Ideal S512x64 .f32)
    (v39 : Vec Ideal S1x64 .f32) (j : Fin 64) :
    k0_pay3 (F := Ideal) v7 v12 v15 v24 v27 v36 v39 (ix3 (0 : Fin 1) (0 : Fin 1) j)
      = mlp actStrict (fun d => ratio (v7 (ix2 (0 : Fin 1) d))) v12 (fun k => v15 (ix2 (0 : Fin 1) k)) v24
          (fun k => v27 (ix2 (0 : Fin 1) k)) v36 (fun k => v39 (ix2 (0 : Fin 1) k)) j := by
  unfold k0_pay3 mlp
  refine (shapeCast_ab_1ab_apply _ _ (0 : Fin 1) (0 : Fin 1) j).trans ?_
  refine (layer_apply _ plain3 _ v36 v39 _ _ j).trans ?_
  refine congrArg (fun f => dense f v36 (fun k => v39 (ix2 (0 : Fin 1) k)) j) (funext fun k2 => ?_)
  refine (leaky_apply _ _).trans (congrArg actStrict ?_)
  refine (layer_apply _ plain2 _ v24 v27 _ _ k2).trans ?_
  refine congrArg (fun f => dense f v24 (fun k => v27 (ix2 (0 : Fin 1) k)) k2) (funext fun k1 => ?_)
  refine (leaky_apply _ _).trans (congrArg actStrict ?_)
  refine (layer_apply _ plain1 _ v12 v15 _ _ k1).trans ?_
  refine congrArg (fun f => dense f v12 (fun k => v15 (ix2 (0 : Fin 1) k)) k1) (funext fun d => ?_)
  rfl

end Cert.KernelIdeal.Payload

end
-- ==== Proof.Layout.lean ====
import proofs.«153912_j4887672783552_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

/-!
# What each input window's block holds, in terms of the launch memory

The program reshapes its three one-dimensional arguments (lengths 2048, 512, 64) to one-row matrices, then runs the
region over a 4 × 16 grid (batch b, row tile n; point t = 16 b + n). Read at an index:

* a reshaped row at (0, k) is the argument at k (same row-major position);
* window 0's block at point t = 16 b + n, at (0, r, e), is the first argument at (b, 512 n + r, e);
* windows 1, 3, 5 hold their whole two-dimensional argument at every point;
* windows 2, 4, 6 hold the whole reshaped row at every point, so at (0, k) the one-dimensional argument at k.

A block's element sits in its array, on each axis, at block index × block size + 1 × its coordinate in the block;
the block indices are decided once over the 64 grid points.
-/

noncomputable section

namespace Cert.KernelIdeal.Layout

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The three row vectors the host reshapes before the region

Each of the three one-dimensional arguments is reshaped to a one-row matrix before the region is entered; the
reshaped buffer read at (0, k) is the argument read at k (the same row-major position). -/

/-- The first reshaped buffer is the shape cast of the launch contents of the length-2048 argument. -/
theorem V_v0_eq (c : Dev nD) :
    (V m c main_v0 : S1x2048.Idx → Elt F .f32)
      = shapeCast S1x2048 (m ((c : Thread nD τ).loc main_arg2) : S2048.Idx → Elt F .f32) shapeCasts_S2048_S1x2048 := by
  show StableHlo.after hostOps0 (fun b => m (c, b)) (Proc.devRef .tc main_v0) = _
  after_results
  rfl

/-- The second reshaped buffer is the shape cast of the launch contents of the length-512 argument. -/
theorem V_v1_eq (c : Dev nD) :
    (V m c main_v1 : S1x512.Idx → Elt F .f32)
      = shapeCast S1x512 (m ((c : Thread nD τ).loc main_arg4) : S512.Idx → Elt F .f32) shapeCasts_S512_S1x512 := by
  show StableHlo.after hostOps0 (fun b => m (c, b)) (Proc.devRef .tc main_v1) = _
  after_results
  rfl

/-- The third reshaped buffer is the shape cast of the launch contents of the length-64 argument. -/
theorem V_v2_eq (c : Dev nD) :
    (V m c main_v2 : S1x64.Idx → Elt F .f32)
      = shapeCast S1x64 (m ((c : Thread nD τ).loc main_arg6) : S64.Idx → Elt F .f32) shapeCasts_S64_S1x64 := by
  show StableHlo.after hostOps0 (fun b => m (c, b)) (Proc.devRef .tc main_v2) = _
  after_results
  rfl

theorem V_v0_apply (c : Dev nD) (k : Fin 2048) :
    (V m c main_v0 : S1x2048.Idx → Elt F .f32) (ix2 (0 : Fin 1) k) = m ((c : Thread nD τ).loc main_arg2) (ix1 k) := by
  rw [V_v0_eq]
  exact shapeCast_a_1a_apply _ _ _ _

theorem V_v1_apply (c : Dev nD) (k : Fin 512) :
    (V m c main_v1 : S1x512.Idx → Elt F .f32) (ix2 (0 : Fin 1) k) = m ((c : Thread nD τ).loc main_arg4) (ix1 k) := by
  rw [V_v1_eq]
  exact shapeCast_a_1a_apply _ _ _ _

theorem V_v2_apply (c : Dev nD) (k : Fin 64) :
    (V m c main_v2 : S1x64.Idx → Elt F .f32) (ix2 (0 : Fin 1) k) = m ((c : Thread nD τ).loc main_arg6) (ix1 k) := by
  rw [V_v2_eq]
  exact shapeCast_a_1a_apply _ _ _ _

/-! ## The block indices over the grid

The grid is 4 × 16, point t at (t / 16, t % 16). Window 0's block index is (t / 16, t % 16, 0); every other input
window's block index is 0 on every axis. Decided once over the 64 points. -/

theorem index0 : ∀ t : Fin cfg0.N,
    win0_0.index t (0 : Fin 3) = t.val / 16 ∧ win0_0.index t (1 : Fin 3) = t.val % 16 ∧ win0_0.index t (2 : Fin 3) = 0 :=
  (by decide +kernel : ∀ t : Fin grid0.N,
    win0_0.index t (0 : Fin 3) = t.val / 16 ∧ win0_0.index t (1 : Fin 3) = t.val % 16 ∧ win0_0.index t (2 : Fin 3) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## The windows' blocks

A block's element sits in its array, on each axis, at block index × block size + 1 × its coordinate in the block. -/

/-- Window 0 at point t = 16 b + n holds rows 512 n … 512 n + 511 of batch b of the first argument. -/
theorem iblk0_apply (c : Dev nD) (t : Fin cfg0.N) (b : Fin 4) (n : Fin 16) (ht : t.val = 16 * b.val + n.val)
    (r : Fin 512) (e : Fin 2048) (hrow : 512 * n.val + r.val < 8192) :
    (iblk m c 0 t : Vec F S1x512x2048 .f32) (ix3 (0 : Fin 1) r e)
      = m ((c : Thread nD τ).loc main_arg0) (ix3 b ⟨512 * n.val + r.val, hrow⟩ e) := by
  obtain ⟨h0, h1, h2⟩ := index0 t
  have hb : b.val < 4 := b.isLt
  have hn : n.val < 16 := n.isLt
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [h0]; omega
  | ⟨1, _⟩ => show win0_0.index t 1 * 512 + 1 * r.val = 512 * n.val + r.val; rw [h1]; omega
  | ⟨2, _⟩ => show win0_0.index t 2 * 2048 + 1 * e.val = e.val; rw [h2]; omega

/-- Window 1's block is the whole second argument, at every point. -/
theorem iblk1_eq (c : Dev nD) (t : Fin cfg0.N) :
    (iblk m c 1 t : Vec F S2048x2048 .f32) = m ((c : Thread nD τ).loc main_arg1) := by
  obtain ⟨h0, h1⟩ := index1 t
  funext j
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * (j 0).val = (j 0).val; rw [h0]; omega
  | ⟨1, _⟩ => show win0_1.index t 1 * 2048 + 1 * (j 1).val = (j 1).val; rw [h1]; omega

/-- Window 2's block is the whole reshaped row of the third argument, at every point. -/
theorem iblk2_apply (c : Dev nD) (t : Fin cfg0.N) (k : Fin 2048) :
    (iblk m c 2 t : Vec F S1x2048 .f32) (ix2 (0 : Fin 1) k) = m ((c : Thread nD τ).loc main_arg2) (ix1 k) := by
  obtain ⟨h0, h1⟩ := index2 t
  unfold iblk
  rw [View.read_apply]
  show (V m c main_v0 : S1x2048.Idx → Elt F .f32) _ = _
  refine (congrArg (V m c main_v0 : S1x2048.Idx → Elt F .f32) (?_ : _ = ix2 (0 : Fin 1) k)).trans (V_v0_apply m c k)
  funext a
  apply Fin.ext
  match a with
  | ⟨0, _⟩ => show win0_2.index t 0 * 1 + 1 * 0 = 0; rw [h0]
  | ⟨1, _⟩ => show win0_2.index t 1 * 2048 + 1 * k.val = k.val; rw [h1]; omega

/-- Window 3's block is the whole fourth argument, at every point. -/
theorem iblk3_eq (c : Dev nD) (t : Fin cfg0.N) :
    (iblk m c 3 t : Vec F S2048x512 .f32) = m ((c : Thread nD τ).loc main_arg3) := by
  obtain ⟨h0, h1⟩ := index3 t
  funext j
  unfold iblk
  rw [View.read_apply]
  show V m c main_arg3 _ = m (c.tc.loc main_arg3) _
  rw [V_main_arg3]
  congr 1
  funext a
  apply Fin.ext
  match a with
  | ⟨0, _⟩ => show win0_3.index t 0 * 2048 + 1 * (j 0).val = (j 0).val; rw [h0]; omega
  | ⟨1, _⟩ => show win0_3.index t 1 * 512 + 1 * (j 1).val = (j 1).val; rw [h1]; omega

/-- Window 4's block is the whole reshaped row of the fifth argument, at every point. -/
theorem iblk4_apply (c : Dev nD) (t : Fin cfg0.N) (k : Fin 512) :
    (iblk m c 4 t : Vec F S1x512 .f32) (ix2 (0 : Fin 1) k) = m ((c : Thread nD τ).loc main_arg4) (ix1 k) := by
  obtain ⟨h0, h1⟩ := index4 t
  unfold iblk
  rw [View.read_apply]
  show (V m c main_v1 : S1x512.Idx → Elt F .f32) _ = _
  refine (congrArg (V m c main_v1 : S1x512.Idx → Elt F .f32) (?_ : _ = ix2 (0 : Fin 1) k)).trans (V_v1_apply m c k)
  funext a
  apply Fin.ext
  match a with
  | ⟨0, _⟩ => show win0_4.index t 0 * 1 + 1 * 0 = 0; rw [h0]
  | ⟨1, _⟩ => show win0_4.index t 1 * 512 + 1 * k.val = k.val; rw [h1]; omega

/-- Window 5's block is the whole sixth argument, at every point. -/
theorem iblk5_eq (c : Dev nD) (t : Fin cfg0.N) :
    (iblk m c 5 t : Vec F S512x64 .f32) = m ((c : Thread nD τ).loc main_arg5) := by
  obtain ⟨h0, h1⟩ := index5 t
  funext j
  unfold iblk
  rw [View.read_apply]
  show V m c main_arg5 _ = m (c.tc.loc main_arg5) _
  rw [V_main_arg5]
  congr 1
  funext a
  apply Fin.ext
  match a with
  | ⟨0, _⟩ => show win0_5.index t 0 * 512 + 1 * (j 0).val = (j 0).val; rw [h0]; omega
  | ⟨1, _⟩ => show win0_5.index t 1 * 64 + 1 * (j 1).val = (j 1).val; rw [h1]; omega

/-- Window 6's block is the whole reshaped row of the seventh argument, at every point. -/
theorem iblk6_apply (c : Dev nD) (t : Fin cfg0.N) (k : Fin 64) :
    (iblk m c 6 t : Vec F S1x64 .f32) (ix2 (0 : Fin 1) k) = m ((c : Thread nD τ).loc main_arg6) (ix1 k) := by
  obtain ⟨h0, h1⟩ := index6 t
  unfold iblk
  rw [View.read_apply]
  show (V m c main_v2 : S1x64.Idx → Elt F .f32) _ = _
  refine (congrArg (V m c main_v2 : S1x64.Idx → Elt F .f32) (?_ : _ = ix2 (0 : Fin 1) k)).trans (V_v2_apply m c k)
  funext a
  apply Fin.ext
  match a with
  | ⟨0, _⟩ => show win0_6.index t 0 * 1 + 1 * 0 = 0; rw [h0]
  | ⟨1, _⟩ => show win0_6.index t 1 * 64 + 1 * k.val = k.val; rw [h1]; omega

end Cert.KernelIdeal.Layout

end
-- ==== Proof.Rows.lean ====
/-
  The running row and the output row as numbers.  After tile n of batch b the running row's entry d is the sum of
  the squared deviations of column d over the batch's first 512 (n + 1) rows: a tile's chunk k adds rows
  512 n + 128 k … 512 n + 128 k + 127, and a sum over a stretch of rows cut into consecutive pieces is the sum of
  the pieces (associativity of addition on the extended reals; no finiteness is used).  After the batch's last tile
  all 8192 rows are in, and the output row is the three layers applied to the ratios of those sums.
-/
import proofs.«153912_j4887672783552_2_alg».proof.Proof.Grid
import proofs.«153912_j4887672783552_2_alg».proof.Proof.Payload
import proofs.«153912_j4887672783552_2_alg».proof.Proof.Layout
import proofs.«153912_j4887672783552_2_alg».proof.Proof.Spec

noncomputable section

open Idealize.ShloMosaic Idealize.ShloMosaic.TcCoe Idealize.SL.Sem Idealize.ShloMosaic.ValueIdx

namespace Cert.KernelIdeal.Rows

open Cert.KernelIdeal Cert.KernelIdeal.Gen Cert.KernelIdeal.Pieces Cert.KernelIdeal.Grid Cert.KernelIdeal.Payload
  Cert.KernelIdeal.Layout Cert.CovMlp

/-- A tile holding rows R … R + 511 of batch b, added chunk by chunk to a row that holds the sums over the rows
    before R, holds after k chunks the sums over the rows before R + 128 k. -/
theorem acc_rows (x : S4x8192x2048.Idx → EReal) (b : Fin 4) (d : Fin 2048) (R : ℕ) (hR : R + 512 ≤ 8192)
    (x0 : Vec Ideal S1x512x2048 .f32)
    (hx0 : ∀ (r : Fin 512) (e : Fin 2048) (h : R + r.val < 8192), x0 (ix3 (0 : Fin 1) r e) = x (ix3 b ⟨R + r.val, h⟩ e))
    (s : Vec Ideal S1x2048 .f32) (hs : s (ix2 (0 : Fin 1) d) = ssUpTo x b d R) :
    ∀ k : ℕ, k ≤ 4 → acc x0 s k (ix2 (0 : Fin 1) d) = ssUpTo x b d (R + 128 * k)
  | 0, _ => by rw [Nat.mul_zero, Nat.add_zero]; exact hs
  | k + 1, hk => by
    have hk' : k < k0_t1_loop.trips := by rw [trips_eq]; omega
    show (if h : k < k0_t1_loop.trips then k0_pay2 (chunk x0 ⟨k, h⟩) (acc x0 s k) else acc x0 s k) (ix2 (0 : Fin 1) d) = _
    rw [dif_pos hk', pay2_apply, acc_rows x b d R hR x0 hx0 s hs k (by omega),
      show R + 128 * (k + 1) = (R + 128 * k) + 128 from by omega, ssUpTo_add x b d (R + 128 * k) 128]
    refine congrArg (fun z : EReal => ssUpTo x b d (R + 128 * k) + z) (Finset.sum_congr rfl fun r _ => ?_)
    have hr : r.val < 128 := r.isLt
    have hrow : R + 128 * k + r.val < 8192 := by omega
    unfold rowTerm
    rw [dif_pos hrow]
    refine congrArg (fun row => dev2 row d) (funext fun e => ?_)
    rw [chunk_apply x0 ⟨k, hk'⟩ r e (by show 128 * k + r.val < 512; omega),
      hx0 ⟨128 * k + r.val, by omega⟩ e (by show R + (128 * k + r.val) < 8192; omega)]
    exact congrArg (fun n => x (ix3 b n e)) (Fin.ext (by show R + (128 * k + r.val) = R + 128 * k + r.val; omega))

variable (m : (ℓ : Loc nD τ sig) → Buf (Elt Ideal) ℓ)

theorem ssUpTo_congr (x : S4x8192x2048.Idx → EReal) (d : Fin 2048) {b b' : Fin 4} {R R' : ℕ} (hb : b = b') (hR : R = R') :
    ssUpTo x b d R = ssUpTo x b' d R' := by subst hb; subst hR; rfl

/-- After tile t mod 16 of batch t div 16 the running row holds the sums over the batch's first 512 (t mod 16 + 1) rows. -/
theorem row_eq (c : Dev nD) (d : Fin 2048) : ∀ (t : ℕ) (ht : t < cfg0.N) (hb : t / 16 < 4),
    (outsAt0 m c t ht).2 (ix2 (0 : Fin 1) d)
      = ssUpTo (m ((c : Thread nD τ).loc main_arg0)) ⟨t / 16, hb⟩ d (512 * (t % 16) + 512) := by
  intro t
  induction t using Nat.strong_induction_on with
  | _ t ih =>
    intro ht hb
    have hN : cfg0.N = 64 := N_0
    have hn : t % 16 < 16 := Nat.mod_lt _ (by omega)
    have hblk : ∀ (r : Fin 512) (e : Fin 2048) (h : 512 * (t % 16) + r.val < 8192),
        (iblk m c 0 ⟨t, ht⟩ : Vec Ideal S1x512x2048 .f32) (ix3 (0 : Fin 1) r e)
          = m ((c : Thread nD τ).loc main_arg0) (ix3 (⟨t / 16, hb⟩ : Fin 4) ⟨512 * (t % 16) + r.val, h⟩ e) :=
      fun r e h => iblk0_apply m c ⟨t, ht⟩ ⟨t / 16, hb⟩ ⟨t % 16, hn⟩ (by show t = 16 * (t / 16) + t % 16; omega) r e h
    by_cases h0 : t % 16 = 0
    · refine (congrFun (row_first m c ⟨t, ht⟩ h0) _).trans ?_
      refine (acc_rows (m ((c : Thread nD τ).loc main_arg0)) ⟨t / 16, hb⟩ d (512 * (t % 16)) (by omega)
        (iblk m c 0 ⟨t, ht⟩) hblk (k0_pay1 (F := Ideal)) ?_ 4 le_rfl).trans ?_
      · rw [pay1_apply, h0, Nat.mul_zero, ssUpTo_zero]
      · exact ssUpTo_congr _ d rfl (by omega)
    · refine (congrFun (row_next m c ⟨t, ht⟩ h0) _).trans ?_
      refine (acc_rows (m ((c : Thread nD τ).loc main_arg0)) ⟨t / 16, hb⟩ d (512 * (t % 16)) (by omega)
        (iblk m c 0 ⟨t, ht⟩) hblk _ ?_ 4 le_rfl).trans ?_
      · refine (ih (t - 1) (by omega) (by omega) (by omega)).trans ?_
        exact ssUpTo_congr _ d (Fin.ext (by show (t - 1) / 16 = t / 16; omega)) (by omega)
      · exact ssUpTo_congr _ d rfl (by omega)

theorem mlp_congr {a : EReal → EReal} {c c' : Fin 2048 → EReal}
    {W1 W1' : (⟨2, ![2048, 2048]⟩ : Shape).Idx → EReal} {b1 b1' : Fin 2048 → EReal}
    {W2 W2' : (⟨2, ![2048, 512]⟩ : Shape).Idx → EReal} {b2 b2' : Fin 512 → EReal}
    {W3 W3' : (⟨2, ![512, 64]⟩ : Shape).Idx → EReal} {b3 b3' : Fin 64 → EReal} (j : Fin 64)
    (hc : c = c') (h1 : W1 = W1') (hb1 : b1 = b1') (h2 : W2 = W2') (hb2 : b2 = b2') (h3 : W3 = W3') (hb3 : b3 = b3') :
    mlp a c W1 b1 W2 b2 W3 b3 j = mlp a c' W1' b1' W2' b2' W3' b3' j := by
  subst hc h1 hb1 h2 hb2 h3 hb3; rfl

/-- After a batch's last tile the output block holds the batch's row of the result. -/
theorem out_eq (c : Dev nD) (t : Fin cfg0.N) (h1 : t.val % 16 = 15) (hb : t.val / 16 < 4) (j : Fin 64) :
    (outsAt0 m c t.val t.isLt).1 (ix3 (0 : Fin 1) (0 : Fin 1) j)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨t.val / 16, hb⟩ j := by
  have hN : cfg0.N = 64 := N_0
  have h0 : ¬t.val % 16 = 0 := by omega
  have hn : t.val % 16 < 16 := Nat.mod_lt _ (by omega)
  refine (congrFun (out_last m c t h1) _).trans ?_
  rw [pay3_apply, mlp_actStrict]
  unfold out
  refine mlp_congr j (funext fun d => congrArg ratio ?_) (iblk1_eq m c t) (funext fun k => iblk2_apply m c t k)
    (iblk3_eq m c t) (funext fun k => iblk4_apply m c t k) (iblk5_eq m c t) (funext fun k => iblk6_apply m c t k)
  rw [ss_eq_upTo]
  refine (acc_rows (m ((c : Thread nD τ).loc main_arg0)) ⟨t.val / 16, hb⟩ d (512 * (t.val % 16)) (by omega)
    (iblk m c 0 t) (fun r e h => iblk0_apply m c t ⟨t.val / 16, hb⟩ ⟨t.val % 16, hn⟩ (by show t.val = 16 * (t.val / 16) + t.val % 16; omega) r e h)
    _ ?_ 4 le_rfl).trans ?_
  · refine (row_eq m c d (t.val - 1) (by omega) (by omega)).trans ?_
    exact ssUpTo_congr _ d (Fin.ext (by show (t.val - 1) / 16 = t.val / 16; omega)) (by omega)
  · exact ssUpTo_congr _ d rfl (by omega)

end Cert.KernelIdeal.Rows

end
-- ==== Proof.Final.lean ====
import proofs.«153912_j4887672783552_2_alg».proof.Proof.Rows
import proofs.«153912_j4887672783552_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

/-!
# The program's run, read as values

The one output window holds a [1, 1, 64] block; it is written back after each batch's last row tile (points
t = 16 b + 15), into row b of the region's result array [4, 1, 64]. The four written blocks cover that array, so it
ends holding, at (b, 0, j), the output row of batch b at j. The reshape after the region drops the middle unit axis:
the final [4, 64] array at (b, j) is the region's result at (b, 0, j) (same row-major position). The seven argument
arrays end as launched.
-/

noncomputable section

namespace Cert.KernelIdeal.Final

open Cert.KernelIdeal Cert.KernelIdeal.Gen Cert.KernelIdeal.Rows Cert.CovMlp Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-- The region's result array [4, 1, 64]: row b is the batch's output row. -/
def res3 (c : Dev nD) : S4x1x64.Idx → EReal := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 2)

/-- The output window's block index at point t is (t / 16, 0, 0): decided once over the 64 grid points. -/
theorem index7 : ∀ t : Fin cfg0.N,
    win0_7.index t (0 : Fin 3) = t.val / 16 ∧ win0_7.index t (1 : Fin 3) = 0 ∧ win0_7.index t (2 : Fin 3) = 0 :=
  (by decide +kernel : ∀ t : Fin grid0.N,
    win0_7.index t (0 : Fin 3) = t.val / 16 ∧ win0_7.index t (1 : Fin 3) = 0 ∧ win0_7.index t (2 : Fin 3) = 0)

/-- What is written back at a batch's last tile t = 16 b + 15 is block (b, 0, 0) of the result array: the block's
    element (0, 0, j) sits at (b · 1 + 0, 0, j), and holds the output row of batch b at j. -/
theorem flushed_eq (c : Dev nD) (t : Fin cfg0.N) (hf : (cfg0.win 7).flush t = true) :
    (dats m 0 c).flushed 7 t = ((cfg0.win 7).blk t).view.read (Elt Ideal) (res3 m c) := by
  have hN : cfg0.N = 64 := N_0
  have h1 : t.val % 16 = 15 := (flush0_7 t).mp hf
  have hlt : t.val < 64 := lt_of_lt_of_eq t.isLt hN
  have hb : t.val / 16 < 4 := by omega
  obtain ⟨i0, i1, i2⟩ := index7 t
  show (cfg0.win 7).cut (grid0.coords t) ((dats m 0 c).after 7 t) = _
  rw [after0_7]
  refine funext fun (y : S1x1x64.Idx) => ?_
  rw [View.read_apply]
  obtain ⟨a, b, j, rfl⟩ : ∃ (a b : Fin 1) (j : Fin 64), y = ix3 a b j := ⟨y 0, y 1, y 2, eq_ix3 y⟩
  obtain rfl : a = 0 := Subsingleton.elim _ _
  obtain rfl : b = 0 := Subsingleton.elim _ _
  show (outsAt0 m c t.val t.isLt).1 (ix3 (0 : Fin 1) (0 : Fin 1) j)
    = res3 m c (((cfg0.win 7).blk t).view.emb (ix3 (0 : Fin 1) (0 : Fin 1) j))
  rw [out_eq m c t h1 hb j]
  unfold res3
  congr 1 <;> apply Fin.ext
  · show t.val / 16 = win0_7.index t 0 * 1 + 1 * 0
    rw [i0]; omega
  · show j.val = win0_7.index t 2 * 64 + 1 * j.val
    rw [i2]; omega

/-- Every element (b, 0, j) of the result array lies in the block written back after batch b's last tile. -/
theorem final7 (c : Dev nD) : (dats m 0 c).arrAt 7 cfg0.N = res3 m c :=
  (dats m 0 c).arrAt_eq_of_cover 7 (res3 m c) (flushed_eq m c) fun i => by
    have hN : cfg0.N = 64 := N_0
    have h0 : (i 0 : Nat) < 4 := (i 0).isLt
    have h1 : (i 1 : Nat) < 1 := (i 1).isLt
    have h2 : (i 2 : Nat) < 64 := (i 2).isLt
    have hT : 16 * (i 0 : Nat) + 15 < cfg0.N := by rw [hN]; omega
    obtain ⟨k0, k1, k2⟩ := index7 ⟨16 * (i 0 : Nat) + 15, hT⟩
    refine ⟨⟨16 * (i 0 : Nat) + 15, hT⟩, (flush0_7 _).mpr (by show (16 * (i 0 : Nat) + 15) % 16 = 15; omega), ?_⟩
    show i ∈ ((View.whole main_v3).slice (win0_7.rect ⟨16 * (i 0 : Nat) + 15, hT⟩)).set
    rw [View.set_slice_whole, Rect.mem_set_unit]
    intro a
    match a with
    | ⟨0, _⟩ =>
      show win0_7.index ⟨16 * (i 0 : Nat) + 15, hT⟩ 0 * 1 ≤ (i 0 : Nat)
        ∧ (i 0 : Nat) < win0_7.index ⟨16 * (i 0 : Nat) + 15, hT⟩ 0 * 1 + 1
      rw [k0]; show (16 * (i 0 : Nat) + 15) / 16 * 1 ≤ (i 0 : Nat) ∧ (i 0 : Nat) < (16 * (i 0 : Nat) + 15) / 16 * 1 + 1; omega
    | ⟨1, _⟩ =>
      show win0_7.index ⟨16 * (i 0 : Nat) + 15, hT⟩ 1 * 1 ≤ (i 1 : Nat)
        ∧ (i 1 : Nat) < win0_7.index ⟨16 * (i 0 : Nat) + 15, hT⟩ 1 * 1 + 1
      rw [k1]; omega
    | ⟨2, _⟩ =>
      show win0_7.index ⟨16 * (i 0 : Nat) + 15, hT⟩ 2 * 64 ≤ (i 2 : Nat)
        ∧ (i 2 : Nat) < win0_7.index ⟨16 * (i 0 : Nat) + 15, hT⟩ 2 * 64 + 64
      rw [k2]; omega

/-- The reshape after the region drops the result array's middle unit axis: (b, j) reads (b, 0, j). -/
theorem tail_v4 (c : Dev nD) :
    Pipeline.afterTail₀ cfgs (dats m) 0 (V0 m) [hostOps1] c main_v4
      = outArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  have hA : Pipeline.withArrays (cfgs 0).spec c (V0 m c) (fun w => (dats m 0 c).arrAt w (cfgs 0).N) (Proc.devRef .tc main_v3)
      = res3 m c :=
    (Pipeline.withArrays_arr spec0 launch0.win.arr_inj c _ _ 7).trans (final7 m c)
  unfold Pipeline.afterTail₀
  show StableHlo.after hostOps1 _ (Proc.devRef .tc main_v4) = _
  after_results
  refine funext fun (i : S4x64.Idx) => ?_
  show shapeCast S4x64 (Pipeline.withArrays (cfgs 0).spec c (V0 m c) (fun w => (dats m 0 c).arrAt w (cfgs 0).N)
    (Proc.devRef .tc main_v3)) shapeCasts_S4x1x64_S4x64 i = _
  rw [hA]
  obtain ⟨b, j, rfl⟩ : ∃ (b : Fin 4) (j : Fin 64), i = ix2 b j := ⟨i 0, i 1, eq_ix2 i⟩
  refine (shapeCast_apply (res3 m c) shapeCasts_S4x1x64_S4x64 (ix2 b j) (ix3 b (0 : Fin 1) j) ?_).trans rfl
  rw [Shape.rowMajor_val_three, Shape.rowMajor_val_two]
  show (b.val * 1 + 0) * 64 + j.val = b.val * 64 + j.val
  omega

/-- The run, read: the final result array is the specification's, and the seven arguments are as launched. -/
theorem run : θ_run defs (onTc (τ := τ) (main (F := Ideal))) ⟨m, fun _ => 0, ρ⟩ fun r => ∀ c : Dev nD,
      r.2.mem ((c.tc : Thread nD τ).loc main_v4) = outArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 (Pipeline.mem_restRefs_of main_v4 (by decide) (by decide))).trans (tail_v4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Final

end
-- ==== Proof.RefRun.lean ====
import proofs.«153912_j4887672783552_2_alg».proof.Proof.Gen.ReferenceIdeal
import Idealize.ShloMosaic.Lib.StableHlo.Run

/-!
  The reference program's run, read back as one term of its seven argument arrays.

  The program is a straight line of forty-three tensor operations: the twenty-nine of the entry function and, at each of
  the two rectifier calls, the seven of the callee (six of its own and the select of the function it calls), run over the
  call's own buffers.  Every weakly fair execution terminates with the result buffer holding the operations' composed
  term and the argument buffers unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, stage by stage -/

/-- each row's sum over its 2048 features, an array [4, 8192] -/
def rowSum (x : FVec F S4x8192x2048 .f32) : FVec F S4x8192 .f32 :=
  Host.reduceAdd x (constant S_ .f32 0x00000000#32) reducesTo_S4x8192x2048_S4x8192_d2 h_S_

/-- each row's mean, kept with a last axis of extent one: [4, 8192, 1] -/
def rowMean (x : FVec F S4x8192x2048 .f32) : FVec F S4x8192x1 .f32 :=
  Host.divf (broadcastInDim S4x8192x1 ![0, 1] bcast_S4x8192_S4x8192x1_0_1 (rowSum x))
    (broadcastInDim S4x8192x1 ![] bcast_S_S4x8192x1 (constant S_ .f32 0x45000000#32))

/-- every entry less its row's mean -/
def centred (x : FVec F S4x8192x2048 .f32) : FVec F S4x8192x2048 .f32 :=
  subf x (broadcastInDim S4x8192x2048 ![0, 1, 2] bcast_S4x8192x1_S4x8192x2048_0_1_2 (rowMean x))

/-- the squared deviations summed over the 8192 rows: [4, 2048] -/
def sumSq (x : FVec F S4x8192x2048 .f32) : FVec F S4x2048 .f32 :=
  Host.reduceAdd (mulf (centred x) (centred x)) (constant S_ .f32 0x00000000#32) reducesTo_S4x8192x2048_S4x2048_d1 h_S_

/-- the ratio s / (s + ε), entry by entry -/
def ratioArr (x : FVec F S4x8192x2048 .f32) : FVec F S4x2048 .f32 :=
  Host.divf (sumSq x) (addf (sumSq x) (broadcastInDim S4x2048 ![] bcast_S_S4x2048 (constant S_ .f32 0x358637BD#32)))

/-- the first dense layer: the product with the weights plus the bias broadcast along the batch -/
def dense1 (c : FVec F S4x2048 .f32) (W1 : FVec F S2048x2048 .f32) (b1 : FVec F S2048 .f32) : FVec F S4x2048 .f32 :=
  addf (Host.dotGeneral dot_S4x2048_S2048x2048_S4x2048_1_0_0_1_n_n none c W1)
    (broadcastInDim S4x2048 ![0, 1] bcast_S1x2048_S4x2048_0_1 (broadcastInDim S1x2048 ![1] bcast_S2048_S1x2048_1 b1))

/-- the rectifier on [4, 2048]: the entry where it is at least zero, else the slope times the entry -/
def leaky1 (h : FVec F S4x2048 .f32) : FVec F S4x2048 .f32 :=
  select (cmpf .oge h (broadcastInDim S4x2048 ![] bcast_S_S4x2048 (constant S_ .f32 0x00000000#32))) h
    (mulf (broadcastInDim S4x2048 ![] bcast_S_S4x2048 (id (constant S_ .f32 0x3C23D70A#32))) h)

/-- the second dense layer -/
def dense2 (h : FVec F S4x2048 .f32) (W2 : FVec F S2048x512 .f32) (b2 : FVec F S512 .f32) : FVec F S4x512 .f32 :=
  addf (Host.dotGeneral dot_S4x2048_S2048x512_S4x512_1_0_0_1_n_n none h W2)
    (broadcastInDim S4x512 ![0, 1] bcast_S1x512_S4x512_0_1 (broadcastInDim S1x512 ![1] bcast_S512_S1x512_1 b2))

/-- the rectifier on [4, 512] -/
def leaky2 (h : FVec F S4x512 .f32) : FVec F S4x512 .f32 :=
  select (cmpf .oge h (broadcastInDim S4x512 ![] bcast_S_S4x512 (constant S_ .f32 0x00000000#32))) h
    (mulf (broadcastInDim S4x512 ![] bcast_S_S4x512 (id (constant S_ .f32 0x3C23D70A#32))) h)

/-- the third dense layer -/
def dense3 (h : FVec F S4x512 .f32) (W3 : FVec F S512x64 .f32) (b3 : FVec F S64 .f32) : FVec F S4x64 .f32 :=
  addf (Host.dotGeneral dot_S4x512_S512x64_S4x64_1_0_0_1_n_n none h W3)
    (broadcastInDim S4x64 ![0, 1] bcast_S1x64_S4x64_0_1 (broadcastInDim S1x64 ![1] bcast_S64_S1x64_1 b3))

/-- the reference's result as one term of the seven argument arrays -/
def refOut (x : FVec F S4x8192x2048 .f32) (W1 : FVec F S2048x2048 .f32) (b1 : FVec F S2048 .f32) (W2 : FVec F S2048x512 .f32) (b2 : FVec F S512 .f32) (W3 : FVec F S512x64 .f32) (b3 : FVec F S64 .f32) : FVec F S4x64 .f32 :=
  dense3 (leaky2 (dense2 (leaky1 (dense1 (ratioArr x) W1 b1)) W2 b2)) W3 b3

/-! ## The program as a list of operations -/

/-- the forty-three operations in order, each callee's operations listed at its call over the call's buffers -/
abbrev ops : List (HloOp τ sig (Elt F)) :=
  [ nullary main_cst (constant S_ .f32 0x00000000#32),
    binary main_arg0 main_cst main_v0 ((fun x v => Host.reduceAdd x v reducesTo_S4x8192x2048_S4x8192_d2 h_S_) : (⟨S4x8192x2048, .f32⟩ : BufTy).Contents (Elt F) → (⟨S_, .f32⟩ : BufTy).Contents (Elt F) → (⟨S4x8192, .f32⟩ : BufTy).Contents (Elt F)),
    unary main_v0 main_v1 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x45000000#32),
    unary main_cst_0 main_v2 (broadcastInDim S4x8192x1 ![] bcast_S_S4x8192x1 : (⟨S_, .f32⟩ : BufTy).Contents (Elt F) → (⟨S4x8192x1, .f32⟩ : BufTy).Contents (Elt F)),
    binary main_v1 main_v2 main_v3 (Host.divf : (⟨S4x8192x1, .f32⟩ : BufTy).Contents (Elt F) → (⟨S4x8192x1, .f32⟩ : BufTy).Contents (Elt F) → (⟨S4x8192x1, .f32⟩ : BufTy).Contents (Elt F)),
    unary main_v3 main_v4 (broadcastInDim S4x8192x2048 ![0, 1, 2] bcast_S4x8192x1_S4x8192x2048_0_1_2 : (⟨S4x8192x1, .f32⟩ : BufTy).Contents (Elt F) → (⟨S4x8192x2048, .f32⟩ : BufTy).Contents (Elt F)),
    binary main_arg0 main_v4 main_v5 (subf : (⟨S4x8192x2048, .f32⟩ : BufTy).Contents (Elt F) → (⟨S4x8192x2048, .f32⟩ : BufTy).Contents (Elt F) → (⟨S4x8192x2048, .f32⟩ : BufTy).Contents (Elt F)),
    binary main_v5 main_v5 main_v6 (mulf : (⟨S4x8192x2048, .f32⟩ : BufTy).Contents (Elt F) → (⟨S4x8192x2048, .f32⟩ : BufTy).Contents (Elt F) → (⟨S4x8192x2048, .f32⟩ : BufTy).Contents (Elt F)),
    nullary main_cst_1 (constant S_ .f32 0x00000000#32),
    binary main_v6 main_cst_1 main_v7 ((fun x v => Host.reduceAdd x v reducesTo_S4x8192x2048_S4x2048_d1 h_S_) : (⟨S4x8192x2048, .f32⟩ : BufTy).Contents (Elt F) → (⟨S_, .f32⟩ : BufTy).Contents (Elt F) → (⟨S4x2048, .f32⟩ : BufTy).Contents (Elt F)),
    nullary main_cst_2 (constant S_ .f32 0x358637BD#32),
    unary main_cst_2 main_v8 (broadcastInDim S4x2048 ![] bcast_S_S4x2048 : (⟨S_, .f32⟩ : BufTy).Contents (Elt F) → (⟨S4x2048, .f32⟩ : BufTy).Contents (Elt F)),
    binary main_v7 main_v8 main_v9 (addf : (⟨S4x2048, .f32⟩ : BufTy).Contents (Elt F) → (⟨S4x2048, .f32⟩ : BufTy).Contents (Elt F) → (⟨S4x2048, .f32⟩ : BufTy).Contents (Elt F)),
    binary main_v7 main_v9 main_v10 (Host.divf : (⟨S4x2048, .f32⟩ : BufTy).Contents (Elt F) → (⟨S4x2048, .f32⟩ : BufTy).Contents (Elt F) → (⟨S4x2048, .f32⟩ : BufTy).Contents (Elt F)),
    binary main_v10 main_arg1 main_v11 ((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F)),
    unary main_arg2 main_v12 (broadcastInDim S1x2048 ![1] bcast_S2048_S1x2048_1 : (⟨S2048, .f32⟩ : BufTy).Contents (Elt F) → (⟨S1x2048, .f32⟩ : BufTy).Contents (Elt F)),
    unary main_v12 main_v13 (broadcastInDim S4x2048 ![0, 1] bcast_S1x2048_S4x2048_0_1 : (⟨S1x2048, .f32⟩ : BufTy).Contents (Elt F) → (⟨S4x2048, .f32⟩ : BufTy).Contents (Elt F)),
    binary main_v11 main_v13 main_v14 (addf : (⟨S4x2048, .f32⟩ : BufTy).Contents (Elt F) → (⟨S4x2048, .f32⟩ : BufTy).Contents (Elt F) → (⟨S4x2048, .f32⟩ : BufTy).Contents (Elt F)),
    nullary main_cst_3 (constant S_ .f32 0x3C23D70A#32),
    TRef.nullary main_call0.cst (constant S_ .f32 0x00000000#32),
    TRef.unary main_call0.cst main_call0.v0 (broadcastInDim S4x2048 ![] bcast_S_S4x2048),
    TRef.binary (.of main_v14 : TRef sig ⟨S4x2048, .f32⟩) main_call0.v0 main_call0.v1 (cmpf .oge),
    TRef.unary (.of main_cst_3 : TRef sig ⟨S_, .f32⟩) main_call0.v2 id,
    TRef.unary main_call0.v2 main_call0.v3 (broadcastInDim S4x2048 ![] bcast_S_S4x2048),
    TRef.binary main_call0.v3 (.of main_v14 : TRef sig ⟨S4x2048, .f32⟩) main_call0.v4 mulf,
    TRef.ternary main_call0.v1 (.of main_v14 : TRef sig ⟨S4x2048, .f32⟩) main_call0.v4 main_call0.call0.v0 select,
    binary main_v15 main_arg3 main_v16 ((fun l r => Host.dotGeneral dot_S4x2048_S2048x512_S4x512_1_0_0_1_n_n none l r) : (⟨S4x2048, .f32⟩ : BufTy).Contents (Elt F) → (⟨S2048x512, .f32⟩ : BufTy).Contents (Elt F) → (⟨S4x512, .f32⟩ : BufTy).Contents (Elt F)),
    unary main_arg4 main_v17 (broadcastInDim S1x512 ![1] bcast_S512_S1x512_1 : (⟨S512, .f32⟩ : BufTy).Contents (Elt F) → (⟨S1x512, .f32⟩ : BufTy).Contents (Elt F)),
    unary main_v17 main_v18 (broadcastInDim S4x512 ![0, 1] bcast_S1x512_S4x512_0_1 : (⟨S1x512, .f32⟩ : BufTy).Contents (Elt F) → (⟨S4x512, .f32⟩ : BufTy).Contents (Elt F)),
    binary main_v16 main_v18 main_v19 (addf : (⟨S4x512, .f32⟩ : BufTy).Contents (Elt F) → (⟨S4x512, .f32⟩ : BufTy).Contents (Elt F) → (⟨S4x512, .f32⟩ : BufTy).Contents (Elt F)),
    nullary main_cst_4 (constant S_ .f32 0x3C23D70A#32),
    TRef.nullary main_call1.cst (constant S_ .f32 0x00000000#32),
    TRef.unary main_call1.cst main_call1.v0 (broadcastInDim S4x512 ![] bcast_S_S4x512),
    TRef.binary (.of main_v19 : TRef sig ⟨S4x512, .f32⟩) main_call1.v0 main_call1.v1 (cmpf .oge),
    TRef.unary (.of main_cst_4 : TRef sig ⟨S_, .f32⟩) main_call1.v2 id,
    TRef.unary main_call1.v2 main_call1.v3 (broadcastInDim S4x512 ![] bcast_S_S4x512),
    TRef.binary main_call1.v3 (.of main_v19 : TRef sig ⟨S4x512, .f32⟩) main_call1.v4 mulf,
    TRef.ternary main_call1.v1 (.of main_v19 : TRef sig ⟨S4x512, .f32⟩) main_call1.v4 main_call1.call0.v0 select,
    binary main_v20 main_arg5 main_v21 ((fun l r => Host.dotGeneral dot_S4x512_S512x64_S4x64_1_0_0_1_n_n none l r) : (⟨S4x512, .f32⟩ : BufTy).Contents (Elt F) → (⟨S512x64, .f32⟩ : BufTy).Contents (Elt F) → (⟨S4x64, .f32⟩ : BufTy).Contents (Elt F)),
    unary main_arg6 main_v22 (broadcastInDim S1x64 ![1] bcast_S64_S1x64_1 : (⟨S64, .f32⟩ : BufTy).Contents (Elt F) → (⟨S1x64, .f32⟩ : BufTy).Contents (Elt F)),
    unary main_v22 main_v23 (broadcastInDim S4x64 ![0, 1] bcast_S1x64_S4x64_0_1 : (⟨S1x64, .f32⟩ : BufTy).Contents (Elt F) → (⟨S4x64, .f32⟩ : BufTy).Contents (Elt F)),
    binary main_v21 main_v23 main_v24 (addf : (⟨S4x64, .f32⟩ : BufTy).Contents (Elt F) → (⟨S4x64, .f32⟩ : BufTy).Contents (Elt F) → (⟨S4x64, .f32⟩ : BufTy).Contents (Elt F)) ]

-- forty-three binds re-associated: the rewrite under the chain recurses once per statement
set_option maxRecDepth 1024 in
/-- the entry function is that straight line: the callees unfolded at their calls and the records at their fields,
    both sides are one chain of steps once sequencing is re-associated -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub .., ternary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    binary_bufs_sub .., unary_bufs_sub .., unary_bufs_sub .., binary_bufs_sub ..⟩

/-- the fold of the operations at the result buffer is the composed term of the argument buffers' contents -/
theorem out_eq (V : Valuation τ sig (Elt F)) :
    after ops V (main_v24 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

/-- On every device, for any float values, from any memory with zero counters: every weakly fair execution of the
    entry function terminates with the result buffer at the composed term of the arguments' launch contents and the
    seven argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v24).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefRun

end
-- ==== Proof.RefRead.lean ====
import proofs.«153912_j4887672783552_2_alg».proof.Proof.RefRun
import proofs.«153912_j4887672783552_2_alg».proof.Proof.Spec
import proofs.«153912_j4887672783552_2_alg».proof.Proof.LibHostRead
import proofs.«153912_j4887672783552_2_alg».proof.Proof.LibPlainDot
import Idealize.ShloMosaic.PureOps.Ideal.Laws
import Idealize.ShloMosaic.Lib.ValueIdx
import Idealize.ShloMosaic.Lib.Pipeline.Value

/-!
  The reference's composed term read on the extended reals, index by index.

  Stage by stage: a row's sum over its features; the mean, broadcast back over the row; the squared deviations summed
  over the rows; the ratio s / (s + ε); then three dense layers, each a matrix product plus a bias repeated along the
  batch, the first two followed by the rectifier (the entry where it is at least zero, else the slope times it).  Each
  stage read at a literal index is the corresponding expression of the specification, so the whole term is the
  specification's result array.
-/

noncomputable section

namespace Cert.ReferenceIdeal.RefRead

open Idealize.ShloMosaic Idealize.ShloMosaic.ValueIdx Cert.ReferenceIdeal Cert.ReferenceIdeal.Gen Cert.ReferenceIdeal.RefRun
  Cert.LibHostRead Cert.LibPlainDot

/-! ## The statistics -/

/-- the row sum at (b, n) is the sum of the row's 2048 entries -/
theorem rowSum_apply (x : FVec Ideal S4x8192x2048 .f32) (b : Fin 4) (n : Fin 8192) :
    rowSum x (ix2 b n) = ∑ e : Fin 2048, x (ix3 b n e) := by
  have h : S4x8192x2048.Reduces [2] S4x8192 := by decide
  refine (Ideal.hostReduceAdd_single reducesTo_S4x8192x2048_S4x8192_d2 h x (Ideal.ofBits .f32 0x00000000#32) (ix2 b n)).trans ?_
  rw [Ideal.ofBits_zero_f32, zero_add]
  show (∑ e : Fin 2048, x (h.lift (ix2 b n) e)) = ∑ e : Fin 2048, x (ix3 b n e)
  refine Finset.sum_congr rfl fun e _ => congrArg x (funext fun a => Fin.ext ?_)
  match a with
  | ⟨0, _⟩ => rfl
  | ⟨1, _⟩ => rfl
  | ⟨2, _⟩ => rfl

/-- the row mean at (b, n, ·) is the row's sum divided by the number of features -/
theorem rowMean_apply (x : FVec Ideal S4x8192x2048 .f32) (b : Fin 4) (n : Fin 8192) (u : Fin 1) :
    rowMean x (ix3 b n u) = Ideal.div (∑ e : Fin 2048, x (ix3 b n e)) CovMlp.nFeat :=
  congrArg₂ Ideal.div
    ((broadcastInDim_apply _ bcast_S4x8192_S4x8192x1_0_1 (rowSum x) (ix3 b n u) (ix2 b n) (fun a => by
      match a with
      | ⟨0, _⟩ => rfl
      | ⟨1, _⟩ => rfl)).trans (rowSum_apply x b n))
    (bid_scalar_apply _ bcast_S_S4x8192x1 (ix3 b n u))

/-- an entry less its row's mean -/
theorem centred_apply (x : FVec Ideal S4x8192x2048 .f32) (b : Fin 4) (n : Fin 8192) (e : Fin 2048) :
    centred x (ix3 b n e) = x (ix3 b n e) - Ideal.div (∑ e' : Fin 2048, x (ix3 b n e')) CovMlp.nFeat :=
  congrArg (x (ix3 b n e) - ·)
    ((broadcastInDim_apply _ bcast_S4x8192x1_S4x8192x2048_0_1_2 (rowMean x) (ix3 b n e) (ix3 b n (0 : Fin 1)) (fun a => by
      match a with
      | ⟨0, _⟩ => rfl
      | ⟨1, _⟩ => rfl
      | ⟨2, _⟩ => rfl)).trans (rowMean_apply x b n 0))

/-- the squared deviations summed over the rows, at (b, d), is the specification's sum of squares -/
theorem sumSq_apply (x : FVec Ideal S4x8192x2048 .f32) (b : Fin 4) (d : Fin 2048) :
    sumSq x (ix2 b d) = CovMlp.ss x b d := by
  have h : S4x8192x2048.Reduces [1] S4x2048 := by decide
  refine (Ideal.hostReduceAdd_single reducesTo_S4x8192x2048_S4x2048_d1 h (mulf (centred x) (centred x))
    (Ideal.ofBits .f32 0x00000000#32) (ix2 b d)).trans ?_
  rw [Ideal.ofBits_zero_f32, zero_add]
  show (∑ n : Fin 8192, mulf (centred x) (centred x) (h.lift (ix2 b d) n)) = ∑ n : Fin 8192, CovMlp.dev2 (fun e => x (ix3 b n e)) d
  refine Finset.sum_congr rfl fun n _ => ?_
  have hl : h.lift (ix2 b d) n = ix3 b n d := funext fun a => Fin.ext (by
    match a with
    | ⟨0, _⟩ => rfl
    | ⟨1, _⟩ => rfl
    | ⟨2, _⟩ => rfl)
  rw [hl, mulf_apply, centred_apply]
  rfl

/-- the ratio at (b, d) -/
theorem ratioArr_apply (x : FVec Ideal S4x8192x2048 .f32) (b : Fin 4) (d : Fin 2048) :
    ratioArr x (ix2 b d) = CovMlp.ratio (CovMlp.ss x b d) := by
  show Ideal.div (sumSq x (ix2 b d))
      (sumSq x (ix2 b d) + broadcastInDim S4x2048 ![] bcast_S_S4x2048 (constant (F := Ideal) S_ .f32 0x358637BD#32) (ix2 b d)) = _
  rw [bid_scalar_apply, sumSq_apply]
  rfl

/-! ## A dense layer and the rectifier, at any sizes -/

/-- a matrix product plus a bias vector placed as one row and repeated along the rows, at (p, j), is the
    specification's dense layer on row p -/
theorem denseRead {M K N : ℕ} (d : DotDims ⟨2, ![M, K]⟩ ⟨2, ![K, N]⟩ ⟨2, ![M, N]⟩) (hd : PlainDot d)
    (h : FVec Ideal ⟨2, ![M, K]⟩ .f32) (W : FVec Ideal ⟨2, ![K, N]⟩ .f32) (bias : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (j : Fin N) :
    addf (Host.dotGeneral d none h W) (broadcastInDim ⟨2, ![M, N]⟩ ![0, 1] h2 (broadcastInDim ⟨2, ![1, N]⟩ ![1] h1 bias)) (ix2 p j)
      = CovMlp.dense (fun k => h (ix2 p k)) W (fun k => bias (ix1 k)) j := by
  show Host.dotGeneral d none h W (ix2 p j)
      + broadcastInDim ⟨2, ![M, N]⟩ ![0, 1] h2 (broadcastInDim ⟨2, ![1, N]⟩ ![1] h1 bias) (ix2 p j) = _
  rw [hdot_apply d hd, bid_1b_ab_apply, bid_b_1b_apply]
  rfl

/-- the rectifier as the reference spells it — compare with the zero spread over the shape, select the entry or the
    slope spread over the shape times the entry — is the specification's rectifier, entry by entry -/
theorem leakyRead {t : Shape} (h : FVec Ideal t .f32) (hb : (⟨0, ![]⟩ : Shape).BroadcastsInDim t ![]) (i : t.Idx) :
    select (cmpf .oge h (broadcastInDim t ![] hb (constant ⟨0, ![]⟩ .f32 0x00000000#32))) h
        (mulf (broadcastInDim t ![] hb (id (constant ⟨0, ![]⟩ .f32 0x3C23D70A#32))) h) i
      = CovMlp.act (h i) := by
  show Scalar.select (Ideal.cmp .oge (h i) (broadcastInDim t ![] hb (constant (F := Ideal) ⟨0, ![]⟩ .f32 0x00000000#32) i)) (h i)
      (broadcastInDim t ![] hb (constant (F := Ideal) ⟨0, ![]⟩ .f32 0x3C23D70A#32) i * h i) = _
  rw [bid_scalar_apply, bid_scalar_apply]
  show Scalar.select (BitVec.ofBool (decide (Ideal.ofBits .f32 0x00000000#32 ≤ h i))) (h i) (CovMlp.slope * h i) = _
  rw [Ideal.ofBits_zero_f32]
  unfold CovMlp.act
  by_cases hv : 0 ≤ h i
  · rw [if_pos hv, decide_eq_true hv]; exact select_one _ _
  · rw [if_neg hv, decide_eq_false hv]; exact select_zero _ _

/-! ## The three layers -/

theorem plain1 : PlainDot dot_S4x2048_S2048x2048_S4x2048_1_0_0_1_n_n where
  hr := rfl
  hs := rfl
  hl0 := fun _ _ => rfl
  hl1 := fun _ _ => rfl
  hr0 := fun _ _ => rfl
  hr1 := fun _ _ => rfl

theorem plain2 : PlainDot dot_S4x2048_S2048x512_S4x512_1_0_0_1_n_n where
  hr := rfl
  hs := rfl
  hl0 := fun _ _ => rfl
  hl1 := fun _ _ => rfl
  hr0 := fun _ _ => rfl
  hr1 := fun _ _ => rfl

theorem plain3 : PlainDot dot_S4x512_S512x64_S4x64_1_0_0_1_n_n where
  hr := rfl
  hs := rfl
  hl0 := fun _ _ => rfl
  hl1 := fun _ _ => rfl
  hr0 := fun _ _ => rfl
  hr1 := fun _ _ => rfl

theorem dense1_apply (c : FVec Ideal S4x2048 .f32) (W1 : FVec Ideal S2048x2048 .f32) (b1 : FVec Ideal S2048 .f32)
    (p : Fin 4) (j : Fin 2048) :
    dense1 c W1 b1 (ix2 p j) = CovMlp.dense (fun k => c (ix2 p k)) W1 (fun k => b1 (ix1 k)) j :=
  denseRead _ plain1 c W1 b1 _ _ p j

theorem dense2_apply (h : FVec Ideal S4x2048 .f32) (W2 : FVec Ideal S2048x512 .f32) (b2 : FVec Ideal S512 .f32)
    (p : Fin 4) (j : Fin 512) :
    dense2 h W2 b2 (ix2 p j) = CovMlp.dense (fun k => h (ix2 p k)) W2 (fun k => b2 (ix1 k)) j :=
  denseRead _ plain2 h W2 b2 _ _ p j

theorem dense3_apply (h : FVec Ideal S4x512 .f32) (W3 : FVec Ideal S512x64 .f32) (b3 : FVec Ideal S64 .f32)
    (p : Fin 4) (j : Fin 64) :
    dense3 h W3 b3 (ix2 p j) = CovMlp.dense (fun k => h (ix2 p k)) W3 (fun k => b3 (ix1 k)) j :=
  denseRead _ plain3 h W3 b3 _ _ p j

theorem leaky1_apply (h : FVec Ideal S4x2048 .f32) (i : S4x2048.Idx) : leaky1 h i = CovMlp.act (h i) :=
  leakyRead h bcast_S_S4x2048 i

theorem leaky2_apply (h : FVec Ideal S4x512 .f32) (i : S4x512.Idx) : leaky2 h i = CovMlp.act (h i) :=
  leakyRead h bcast_S_S4x512 i

/-! ## The whole term -/

/-- the reference's composed term is the specification's result array -/
theorem refOut_eq (x : FVec Ideal S4x8192x2048 .f32) (W1 : FVec Ideal S2048x2048 .f32) (b1 : FVec Ideal S2048 .f32) (W2 : FVec Ideal S2048x512 .f32) (b2 : FVec Ideal S512 .f32) (W3 : FVec Ideal S512x64 .f32) (b3 : FVec Ideal S64 .f32) :
    Cert.ReferenceIdeal.RefRun.refOut (F := Ideal) x W1 b1 W2 b2 W3 b3 = Cert.CovMlp.outArr x W1 b1 W2 b2 W3 b3 := by
  funext i
  obtain ⟨b, j, rfl⟩ : ∃ (b : Fin 4) (j : Fin 64), i = ix2 b j := ⟨i 0, i 1, eq_ix2 i⟩
  show dense3 (leaky2 (dense2 (leaky1 (dense1 (ratioArr x) W1 b1)) W2 b2)) W3 b3 (ix2 b j)
    = CovMlp.dense (fun k => CovMlp.act (CovMlp.dense (fun k' => CovMlp.act (CovMlp.dense (fun d => CovMlp.ratio (CovMlp.ss x b d))
        W1 (fun k => b1 (ix1 k)) k')) W2 (fun k => b2 (ix1 k)) k)) W3 (fun k => b3 (ix1 k)) j
  rw [dense3_apply]
  refine congrArg (fun h => CovMlp.dense h W3 (fun k => b3 (ix1 k)) j) (funext fun k => ?_)
  rw [leaky2_apply, dense2_apply]
  refine congrArg (fun h => CovMlp.act (CovMlp.dense h W2 (fun k => b2 (ix1 k)) k)) (funext fun k' => ?_)
  rw [leaky1_apply, dense1_apply]
  refine congrArg (fun h => CovMlp.act (CovMlp.dense h W1 (fun k => b1 (ix1 k)) k')) (funext fun d => ?_)
  exact ratioArr_apply x b d

end Cert.ReferenceIdeal.RefRead

end
-- ==== Proof.lean ====
/-
  The kernel and the reference compute one function of their seven argument arrays, on the extended reals.

  For each batch the rows of the input are centred on their own mean over the 2048 features; column d's sum over the
  8192 rows of the squared deviations is ss[b, d]; the ratio ss / (ss + ε) feeds three dense layers, the first two
  followed by a leaky rectifier.

  The kernel takes the rows a tile at a time and, within a tile, a chunk of rows at a time, adding each chunk's column
  sums of squared deviations to an accumulator; at the last tile it forms the ratio and applies the three layers, its
  rectifier testing 0 < v.  The reference takes the whole sums at once, and its rectifier tests 0 ≤ v.  The two agree:
  a sum over the rows taken a stretch at a time is the same sum, by associativity of addition on the extended reals
  alone, and the two rectifiers differ in their test only at v = 0, where slope · 0 = 0.  Nothing here uses that the
  inputs are finite.

  The five claims.  Each of the two kernel programs runs and leaves its arguments unchanged: the generated frames.  The
  reference runs and leaves its arguments unchanged: its run, read back as one term of the arguments, with the result
  dropped.  The idealization rewrote no operation, so there is nothing for it to preserve: True.  And at the ideal
  instance, from memories that agree on the arguments, both programs end with the specification's result array — the
  kernel by its run read through the tiles and chunks, the reference by its composed term read index by index — so
  their results are equal.
-/
import proofs.«153912_j4887672783552_2_alg».proof.Defs
import proofs.«153912_j4887672783552_2_alg».proof.Proof.Gen.Kernel.Frame
import proofs.«153912_j4887672783552_2_alg».proof.Proof.Gen.KernelIdeal.Frame
import proofs.«153912_j4887672783552_2_alg».proof.Proof.Gen.ReferenceIdeal
import proofs.«153912_j4887672783552_2_alg».proof.Proof.Gen.Pre_finite_inputs
import proofs.«153912_j4887672783552_2_alg».proof.Proof.Final
import proofs.«153912_j4887672783552_2_alg».proof.Proof.RefRun
import proofs.«153912_j4887672783552_2_alg».proof.Proof.RefRead
import Idealize.ShloMosaic.Adequacy
import Idealize.ShloMosaic.Init

noncomputable section

namespace Cert.Proof

open Idealize.ShloMosaic Idealize.ShloMosaic.TcCoe Idealize.SL.Sem

/-- the kernel as printed runs and leaves its arguments unchanged -/
theorem frame_p : Cert.frame_Kernel := fun m ρ _ => Cert.Kernel.Gen.frame m ρ

/-- the kernel read on the extended reals runs and leaves its arguments unchanged -/
theorem frame_pi : Cert.frame_KernelIdeal := fun m ρ _ => Cert.KernelIdeal.Gen.frame m ρ

/-- the reference runs and leaves its arguments unchanged: its run, the result dropped -/
theorem frame_ri : Cert.frame_ReferenceIdeal := fun m ρ _ =>
  (θ_run Cert.ReferenceIdeal.defs _ _).mono (fun _ h c => (h c).2) (Cert.ReferenceIdeal.RefRun.run (F := Ideal) m ρ)

/-- no operation was rewritten on the way to the extended reals -/
theorem preserves : Cert.preserves_Kernel_KernelIdeal := trivial

/-- On the extended reals the kernel's result array ends at the specification's result array of its arguments, and the
    reference's at its composed term of arguments that agree with them, which is that same array. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.refOut_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
